-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S5000x1 : Shape := ⟨2, ![5000, 1]⟩
abbrev S1x16 : Shape := ⟨2, ![1, 16]⟩
abbrev S100000x7 : Shape := ⟨2, ![100000, 7]⟩
abbrev S5000x7 : Shape := ⟨2, ![5000, 7]⟩
abbrev S3300000x7 : Shape := ⟨2, ![3300000, 7]⟩
abbrev S1x7 : Shape := ⟨2, ![1, 7]⟩
abbrev S5000 : Shape := ⟨1, ![5000]⟩

abbrev nBuf : Space → Nat
  | .hbm => 79
  | .vmem => 32
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S100000x16, .f32⟩
  | .hbm, ⟨63, _⟩ => ⟨S100000x7, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x7, .f32⟩
  | .hbm, ⟨73, _⟩ => ⟨S3300000x7, .f32⟩
  | .hbm, ⟨74, _⟩ => ⟨S_, .f32⟩
  | .hbm, ⟨75, _⟩ => ⟨S100000x7, .f32⟩
  | .hbm, ⟨76, _⟩ => ⟨S3300000x1, .i32⟩
  | .hbm, ⟨77, _⟩ => ⟨S100000x7, .f32⟩
  | .hbm, ⟨78, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x1, .f32⟩
  | .local _ .vmem, ⟨8, _⟩ => ⟨S5000x1, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x7, .f32⟩
  | .local _ .vmem, ⟨19, _⟩ => ⟨S5000x7, .f32⟩
  | .local _ .vmem, ⟨20, _⟩ => ⟨S5000x7, .f32⟩
  | .local _ .vmem, ⟨21, _⟩ => ⟨S5000x7, .f32⟩
  | .local _ .vmem, ⟨22, _⟩ => ⟨S5000x7, .f32⟩
  | .local _ .vmem, ⟨23, _⟩ => ⟨S5000x1, .f32⟩
  | .local _ .vmem, ⟨24, _⟩ => ⟨S5000x1, .f32⟩
  | .local _ .vmem, ⟨25, _⟩ => ⟨S5000x7, .f32⟩
  | .local _ .vmem, ⟨26, _⟩ => ⟨S5000x7, .f32⟩
  | .local _ .vmem, ⟨27, _⟩ => ⟨S5000x7, .f32⟩
  | .local _ .vmem, ⟨28, _⟩ => ⟨S5000x7, .f32⟩
  | .local _ .vmem, ⟨29, _⟩ => ⟨S7, .f32⟩
  | .local _ .vmem, ⟨30, _⟩ => ⟨S5000x7, .f32⟩
  | .local _ .vmem, ⟨31, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![660], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![660], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x7 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x7 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x7 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S7 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x7 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  bcast_S_S100000x16 : S_.BroadcastsInDim S100000x16 (![] : Fin 0 → Fin S100000x16.rank)
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  shapeCasts_S5000x7_S5000x7 : S5000x7.ShapeCasts S5000x7
  broadcasts_S5000x1_S5000x7 : S5000x1.Broadcasts S5000x7
  bcast_S_S100000x7 : S_.BroadcastsInDim S100000x7 (![] : Fin 0 → Fin S100000x7.rank)
  inb_S7_S7_0 : ∀ a, (![0] : Fin 1 → Nat) a + S7.size a ≤ S7.size a
  h_S7 : 0 < S7.numel
  shapeCasts_S7_S1x7 : S7.ShapeCasts S1x7
  broadcasts_S1x7_S5000x7 : S1x7.Broadcasts S5000x7
  reduces_S5000x7_S5000 : S5000x7.Reduces [1] S5000
  shapeCasts_S5000_S5000x1 : S5000.ShapeCasts S5000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S3300000x16.size a
  hwx1_0 : ∀ i : grid1.Coords, EltTy.bits .f32 = 32 ∨ (Rect.block (s := S3300000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S3300000x1.size a
  hwx1_1 : ∀ i : grid1.Coords, EltTy.bits .f32 = 32 ∨ (Rect.block (s := S3300000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S3300000x16.size a
  hwx1_2 : ∀ i : grid1.Coords, EltTy.bits .f32 = 32 ∨ (Rect.block (s := S3300000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16.size a ≤ S16.size a
  hwx2_1 : ∀ i : grid2.Coords, EltTy.bits .f32 = 32 ∨ (Rect.block (s := S16) S16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x7.size a ≤ S16x7.size a
  hwx3_1 : ∀ i : grid3.Coords, EltTy.bits .f32 = 32 ∨ (Rect.block (s := S16x7) S16x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x7.size a ≤ S100000x7.size a
  hwx3_2 : ∀ i : grid3.Coords, EltTy.bits .f32 = 32 ∨ (Rect.block (s := S100000x7) S5000x7.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x7.size a ≤ S3300000x7.size a
  hwx4_0 : ∀ i : grid4.Coords, EltTy.bits .f32 = 32 ∨ (Rect.block (s := S3300000x7) S5000x7.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S3300000x1.size a
  hwx4_1 : ∀ i : grid4.Coords, EltTy.bits .f32 = 32 ∨ (Rect.block (s := S3300000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x7.size a ≤ S3300000x7.size a
  hwx4_2 : ∀ i : grid4.Coords, EltTy.bits .f32 = 32 ∨ (Rect.block (s := S3300000x7) S5000x7.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x7.size a ≤ S100000x7.size a
  hwx5_0 : ∀ i : grid5.Coords, EltTy.bits .f32 = 32 ∨ (Rect.block (s := S100000x7) S5000x7.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S7.size a ≤ S7.size a
  hwx5_1 : ∀ i : grid5.Coords, EltTy.bits .f32 = 32 ∨ (Rect.block (s := S7) S7.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x7.size a ≤ S100000x7.size a
  hwx5_2 : ∀ i : grid5.Coords, EltTy.bits .f32 = 32 ∨ (Rect.block (s := S100000x7) S5000x7.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S5000x7.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S5000x7.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v55) S5000x7.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S7.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S5000x7.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x7, .f32⟩
  | 5 => ⟨S7, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S3300000x1, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x16, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x7, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S3300000x1, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x7, .f32⟩
  | 120 => ⟨S3300000x7, .f32⟩
  | 121 => ⟨S3300000x7, .f32⟩
  | 122 => ⟨S_, .f32⟩
  | 123 => ⟨S100000x7, .f32⟩
  | 124 => ⟨S3300000x1, .i32⟩
  | 125 => ⟨S100000x7, .f32⟩
  | 126 => ⟨S1x7, .f32⟩
  | 127 => ⟨S100000x7, .f32⟩
  | _ => ⟨S100000x512, .f32⟩

abbrev hbmTy0_1 (i : Nat) : BufTy := match i % 128 with
  | 0 => ⟨S100000x7, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x7, .f32⟩
  | 8 => ⟨S100000x7, .f32⟩
  | 9 => ⟨S100000x7, .f32⟩
  | 10 => ⟨S_, .f32⟩
  | 11 => ⟨S100000, .f32⟩
  | 12 => ⟨S100000x1, .f32⟩
  | 13 => ⟨S100000x1, .f32⟩
  | 14 => ⟨S100000x7, .f32⟩
  | 15 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  What a run of the idealized kernel leaves in its result buffer. The program is six pipelined regions among stretches of
  host operations; the buffer contents at the thirteen boundaries are a fold from the launch memory (a host stretch applies
  its operations, a region replaces its arrays by what its write-backs leave), and every weakly fair execution ends with
  each unscoped buffer at the last boundary's contents. Read at the result buffer and at the six arguments, that is the
  statement here: the result holds the fold's last value at its buffer, the arguments what they were launched with.
-/
import proofs.«169625_j37941741093230_2_alg».proof.Proof.Gen.KernelIdeal.Frame

set_option maxRecDepth 16384

noncomputable section

namespace Cert.KernelIdeal.Folded

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's contents
    (`W13` at that buffer) and the six argument arrays as launched. -/
theorem run_folded : θ_run defs (onTc (τ := τ) (main (F := F))) ⟨m, fun _ => 0, ρ⟩ (fun r => ∀ c : Dev nD,
      r.2.mem ((c.tc : Thread nD τ).loc main_v56) = W13 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v56 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Folded

end
-- ==== Proof.HostStages.lean ====
/-
  The host operations the program runs between its regions, as named functions of the buffers they read. From the edge
  list (two rows of 3,200,000 node numbers) the program forms the source and the target of every edge, each followed by the
  100,000 self loops; the degree of a node is the number of edges that end in it, its scale 1/√degree where the degree is
  positive and the zero word's value elsewhere, and an edge's coefficient the product of the scales of its two ends, laid
  out as a column. A layer's gather reads, for each edge, the row of its source (a negative index wrapped by the number
  of nodes first); its summation adds each edge's row into the row of its target, starting from zeros. Each stretch of host
  operations is stated for ANY contents of the buffers before it: the buffer it is read at holds the named function of
  the buffers the stretch reads, and a buffer no operation of the stretch writes holds what it held.
-/
import proofs.«169625_j37941741093230_2_alg».proof.Proof.Gen.KernelIdeal.Launch
import Idealize.ShloMosaic.Lib.StableHlo.Run
import Idealize.ShloMosaic.PureOps.Ideal

set_option maxRecDepth 16384

noncomputable section

namespace Cert.Gcn.HostStages

open Idealize.ShloMosaic Idealize.ShloMosaic.TcCoe Idealize.SL.Sem Idealize.ShloMosaic.StableHlo
open Cert.KernelIdeal Cert.KernelIdeal.Gen

/-- An array of 32-bit integers, and an array of floats read as extended reals. -/
abbrev I32 (s : Shape) : Type := IVec s 32
abbrev F32 (s : Shape) : Type := FVec Ideal s .f32

/-- The source of every edge: row 0 of the edge list, then the node numbers 0 … 99,999 (the self loops). -/
def sourcesOf (e : I32 S2x3200000) : I32 S3300000 :=
  concatenate S3300000 0 [⟨S3200000, shapeCast _ (extractStridedSlice S1x3200000 ![0, 0] e slices_S2x3200000_S1x3200000_0_0) shapeCasts_S1x3200000_S3200000⟩,
    ⟨S100000, iotaInDim S100000 32 0⟩] concatenates_S3200000_S100000_S3300000_d0

/-- The target of every edge: row 1 of the edge list, then the self loops. -/
def targetsOf (e : I32 S2x3200000) : I32 S3300000 :=
  concatenate S3300000 0 [⟨S3200000, shapeCast _ (extractStridedSlice S1x3200000 ![1, 0] e slices_S2x3200000_S1x3200000_1_0) shapeCasts_S1x3200000_S3200000⟩,
    ⟨S100000, iotaInDim S100000 32 0⟩] concatenates_S3200000_S100000_S3300000_d0

/-- Node numbers as a column of gather indices: a negative number has the number of nodes added first. -/
def wrappedColumn (r : I32 S3300000) : I32 S3300000x1 :=
  broadcastInDim S3300000x1 ![0] bcast_S3300000_S3300000x1_0
    (select (cmpi .slt r (broadcastInDim S3300000 ![] bcast_S_S3300000 (constantI S_ 32 0#32)))
      (addi r (broadcastInDim S3300000 ![] bcast_S_S3300000 (constantI S_ 32 100000#32))) r)

/-- Node numbers as a column of summation indices, as they are. -/
def column (r : I32 S3300000) : I32 S3300000x1 :=
  broadcastInDim S3300000x1 ![0] bcast_S3300000_S3300000x1_0 r

/-- A node's degree: a one added, from zero, for every edge whose target it is. -/
def degreeOf (tgt : I32 S3300000) : F32 S100000 :=
  Host.scatterAdd (F := Ideal) scatter_S100000_S3300000x1_S3300000_n_0_0_1
    (broadcastInDim S100000 ![] bcast_S_S100000 (constant (F := Ideal) S_ .f32 0x00000000#32)) (column tgt)
    (broadcastInDim S3300000 ![] bcast_S_S3300000 (constant (F := Ideal) S_ .f32 0x3F800000#32))

/-- Which degrees are positive. -/
def positiveOf (deg : F32 S100000) : IVec S100000 1 :=
  cmpf (F := Ideal) .ogt deg (broadcastInDim S100000 ![] bcast_S_S100000 (constant (F := Ideal) S_ .f32 0x00000000#32))

/-- A node's scale: the selected value of 1/√degree where the mask says so, a given scalar elsewhere. -/
def scaleOf (mask : IVec S100000 1) (rs : F32 S100000) (z : F32 S_) : F32 S100000 :=
  select mask rs (broadcastInDim S100000 ![] bcast_S_S100000 (id z))

/-- An edge's coefficient: the product of the scales of its source and of its target, as a column. -/
def coefficientOf (dinv : F32 S100000) (src tgt : I32 S3300000) : F32 S3300000x1 :=
  broadcastInDim S3300000x1 ![0] bcast_S3300000_S3300000x1_0
    (mulf (F := Ideal) (s := S3300000) (φ := .f32)
      (Host.gather gather_S100000_S3300000x1_S3300000_n_0_n_n_0_1_1 dinv (wrappedColumn src))
      (Host.gather gather_S100000_S3300000x1_S3300000_n_0_n_n_0_1_1 dinv (wrappedColumn tgt)))

/-- For each edge the row of its source, 16 features. -/
def gather16 (y : F32 S100000x16) (src : I32 S3300000) : F32 S3300000x16 :=
  Host.gather gather_S100000x16_S3300000x1_S3300000x16_1_0_n_n_0_1_116 y (wrappedColumn src)

/-- Each edge's row added into the row of its target, from zeros, 16 features. -/
def sumAtTargets16 (u : F32 S3300000x16) (tgt : I32 S3300000) : F32 S100000x16 :=
  Host.scatterAdd (F := Ideal) scatter_S100000x16_S3300000x1_S3300000x16_1_0_0_1
    (broadcastInDim S100000x16 ![] bcast_S_S100000x16 (constant (F := Ideal) S_ .f32 0x00000000#32)) (column tgt) u

/-- For each edge the row of its source, 7 features. -/
def gather7 (y : F32 S100000x7) (src : I32 S3300000) : F32 S3300000x7 :=
  Host.gather gather_S100000x7_S3300000x1_S3300000x7_1_0_n_n_0_1_17 y (wrappedColumn src)

/-- Each edge's row added into the row of its target, from zeros, 7 features. -/
def sumAtTargets7 (u : F32 S3300000x7) (tgt : I32 S3300000) : F32 S100000x7 :=
  Host.scatterAdd (F := Ideal) scatter_S100000x7_S3300000x1_S3300000x7_1_0_0_1
    (broadcastInDim S100000x7 ![] bcast_S_S100000x7 (constant (F := Ideal) S_ .f32 0x00000000#32)) (column tgt) u

/-! ## Each stretch, from any contents -/

variable (W : Valuation τ sig (Elt Ideal))

/-- A buffer that no operation of a stretch writes holds after the stretch what it held before. -/
macro "unwritten_by" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem first_sources : StableHlo.after hostOps0 W (Proc.devRef .tc main_v5) = sourcesOf (W (Proc.devRef .tc main_arg1)) := by
  dsimp only [hostOps0]; after_results; rfl
theorem first_targets : StableHlo.after hostOps0 W (Proc.devRef .tc main_v6) = targetsOf (W (Proc.devRef .tc main_arg1)) := by
  dsimp only [hostOps0]; after_results; rfl
theorem first_positive : StableHlo.after hostOps0 W (Proc.devRef .tc main_v12) = positiveOf (degreeOf (targetsOf (W (Proc.devRef .tc main_arg1)))) := by
  dsimp only [hostOps0]; after_results; rfl
theorem first_rsqrt : StableHlo.after hostOps0 W (Proc.devRef .tc main_v13) = Host.rsqrt (F := Ideal) (s := S100000) (φ := .f32) (degreeOf (targetsOf (W (Proc.devRef .tc main_arg1)))) := by
  dsimp only [hostOps0]; after_results; rfl
theorem first_zero : StableHlo.after hostOps0 W (Proc.devRef .tc main_cst_2) = constant (F := Ideal) S_ .f32 0x00000000#32 := by
  dsimp only [hostOps0]; after_results

theorem where_scale : StableHlo.after hostOps0_1 W (Proc.devRef .tc main_v14)
    = scaleOf (W (Proc.devRef .tc main_v12)) (W (Proc.devRef .tc main_v13)) (W (Proc.devRef .tc main_cst_2)) := by
  dsimp only [hostOps0_1]; after_results; rfl

set_option maxHeartbeats 8000000 in
theorem norm_coefficient : StableHlo.after hostOps0_2 W (Proc.devRef .tc main_v30)
    = coefficientOf (W (Proc.devRef .tc main_v14)) (W (Proc.devRef .tc main_v5)) (W (Proc.devRef .tc main_v6)) := by
  dsimp only [hostOps0_2]; after_results_simp <;> rfl

theorem gathered16 : StableHlo.after hostOps1 W (Proc.devRef .tc main_v38)
    = gather16 (W (Proc.devRef .tc main_v31)) (W (Proc.devRef .tc main_v5)) := by
  dsimp only [hostOps1]; after_results; rfl

theorem summed16 : StableHlo.after hostOps2 W (Proc.devRef .tc main_v42)
    = sumAtTargets16 (W (Proc.devRef .tc main_v39)) (W (Proc.devRef .tc main_v6)) := by
  dsimp only [hostOps2]; after_results; rfl

theorem gathered7 : StableHlo.after hostOps4 W (Proc.devRef .tc main_v51)
    = gather7 (W (Proc.devRef .tc main_v44)) (W (Proc.devRef .tc main_v5)) := by
  dsimp only [hostOps4]; after_results; rfl

theorem summed7 : StableHlo.after hostOps5 W (Proc.devRef .tc main_v55)
    = sumAtTargets7 (W (Proc.devRef .tc main_v52)) (W (Proc.devRef .tc main_v6)) := by
  dsimp only [hostOps5]; after_results; rfl

end Cert.Gcn.HostStages

end
-- ==== Proof.DenseStages.lean ====
/-
  The dense stages of a two-layer graph convolution, each as ONE function of whole arrays over the extended reals,
  entry by entry. A layer multiplies the node features by a weight matrix (entry (n, f) is the sum over k of
  x(n, k) · w(k, f)), gathers one product row per edge, scales edge e's row by that edge's coefficient, adds the
  scaled rows up per target node, and adds a bias; the first layer ends in max(·, 0), the second in a logarithmic
  softmax along each row: with z the biased row and M its largest entry, entry j is (z j − M) − log Σ_l exp (z l − M).
  The gather and the per-node addition are not here: both programs take them by the same two host operations.
-/
import proofs.«169625_j37941741093230_2_alg».proof.KernelIdeal
import Idealize.ShloMosaic.Lib.ValueIdx
import Idealize.ShloMosaic.PureOps.Ideal

noncomputable section

namespace Cert.Gcn

open Idealize.ShloMosaic Idealize.ShloMosaic.ValueIdx Cert.KernelIdeal

/-- Node features times the first weight matrix: entry (n, f) is Σ_k x(n, k) · w(k, f), k over the 512 input features. -/
def project16 (x : FVec Ideal S100000x512 .f32) (w : FVec Ideal S512x16 .f32) : FVec Ideal S100000x16 .f32 :=
  fun i => ∑ k : Fin 512, x (ix2 (i 0) k) * w (ix2 k (i 1))

/-- Hidden features times the second weight matrix: entry (n, f) is Σ_k h(n, k) · w(k, f), k over the 16 hidden features. -/
def project7 (h : FVec Ideal S100000x16 .f32) (w : FVec Ideal S16x7 .f32) : FVec Ideal S100000x7 .f32 :=
  fun i => ∑ k : Fin 16, h (ix2 (i 0) k) * w (ix2 k (i 1))

/-- Edge e's gathered row times edge e's coefficient (16 features). -/
def scale16 (g : FVec Ideal S3300000x16 .f32) (n : FVec Ideal S3300000x1 .f32) : FVec Ideal S3300000x16 .f32 :=
  fun i => g i * n (ix2 (i 0) (0 : Fin 1))

/-- Edge e's gathered row times edge e's coefficient (7 features). -/
def scale7 (g : FVec Ideal S3300000x7 .f32) (n : FVec Ideal S3300000x1 .f32) : FVec Ideal S3300000x7 .f32 :=
  fun i => g i * n (ix2 (i 0) (0 : Fin 1))

/-- The first layer's end: the bias added along each row, then the larger of that and the zero word's value. -/
def biasRelu (s : FVec Ideal S100000x16 .f32) (b : FVec Ideal S16 .f32) : FVec Ideal S100000x16 .f32 :=
  fun i => max (s i + b (ix1 (i 1))) (Ideal.ofBits .f32 0x00000000#32)

/-- Row r with the bias added: the seven numbers the logarithmic softmax is taken over. -/
def biasedRow (s : FVec Ideal S100000x7 .f32) (b : FVec Ideal S7 .f32) (r : Fin 100000) : Fin 7 → EReal :=
  fun j => s (ix2 r j) + b (ix1 j)

/-- The largest of seven numbers, folded from the value of the word 0xFF800000 (−∞). -/
def rowMax (z : Fin 7 → EReal) : EReal :=
  (Finset.univ : Finset (Fin 7)).fold max (Ideal.ofBits .f32 0xFF800000#32) z

/-- The second layer's end: (z j − M) − log Σ_l exp (z l − M) with z the biased row and M its largest entry. -/
def biasLogSoftmax (s : FVec Ideal S100000x7 .f32) (b : FVec Ideal S7 .f32) : FVec Ideal S100000x7 .f32 :=
  fun i => (biasedRow s b (i 0) (i 1) - rowMax (biasedRow s b (i 0)))
    - Ideal.log (∑ l : Fin 7, Ideal.exp (biasedRow s b (i 0) l - rowMax (biasedRow s b (i 0))))

end Cert.Gcn

end
-- ==== Proof.KernelValue.lean ====
/-
  The whole computation as ONE function of the six argument arrays: node features x, edge list e, and the two layers'
  weights and biases. With s the sources and d the targets of the edges (self loops appended) and c the edges'
  coefficients, a layer sends h to (Σ over the edges into each node of c · (h W)[source]) + b; the first layer ends in
  max(·, 0), the second in the logarithmic softmax of each row.
-/
import proofs.«169625_j37941741093230_2_alg».proof.Proof.HostStages
import proofs.«169625_j37941741093230_2_alg».proof.Proof.DenseStages

noncomputable section

namespace Cert.Gcn

open Idealize.ShloMosaic Cert.KernelIdeal Cert.Gcn.HostStages

/-- Every edge's coefficient, from the edge list alone: 1/√(degree of its source) · 1/√(degree of its target). -/
def coefficients (e : I32 S2x3200000) : F32 S3300000x1 :=
  coefficientOf
    (scaleOf (positiveOf (degreeOf (targetsOf e))) (Host.rsqrt (F := Ideal) (s := S100000) (φ := .f32) (degreeOf (targetsOf e)))
      (constant (F := Ideal) S_ .f32 0x00000000#32))
    (sourcesOf e) (targetsOf e)

/-- The hidden features: the first layer, ending in max(·, 0). -/
def hidden (x : F32 S100000x512) (e : I32 S2x3200000) (w1 : F32 S512x16) (b1 : F32 S16) : F32 S100000x16 :=
  biasRelu (sumAtTargets16 (scale16 (gather16 (project16 x w1) (sourcesOf e)) (coefficients e)) (targetsOf e)) b1

/-- The result: the second layer on the hidden features, ending in the logarithmic softmax of each row. -/
def kernelValue (x : F32 S100000x512) (e : I32 S2x3200000) (w1 : F32 S512x16) (b1 : F32 S16) (w2 : F32 S16x7) (b2 : F32 S7) :
    F32 S100000x7 :=
  biasLogSoftmax (sumAtTargets7 (scale7 (gather7 (project7 (hidden x e w1 b1) w2) (sourcesOf e)) (coefficients e)) (targetsOf e)) b2

end Cert.Gcn

end
-- ==== Proof.ProjectRows.lean ====
/-
  A block of 5000 rows of node features times a whole weight matrix, read at one entry. Over the extended reals
  the narrowing of both operands to a shorter format is the identity and the accumulator starts from the value of the
  zero word, so entry (p, q) of the product is the plain sum over k of x(p, k) · w(k, q); the contraction's index set
  has one axis and is re-indexed by its one coordinate k.
-/
import proofs.«169625_j37941741093230_2_alg».proof.Proof.Gen.KernelIdeal.Skeleton
import proofs.«169625_j37941741093230_2_alg».proof.Proof.DenseStages
import Idealize.ShloMosaic.Lib.ValueIdx
import Idealize.ShloMosaic.Lib.Pipeline.Value
import Idealize.ShloMosaic.PureOps.Ideal.Laws

open Idealize.ShloMosaic Idealize.ShloMosaic.ValueIdx Cert.KernelIdeal Cert.KernelIdeal.Gen Cert.Gcn

noncomputable section

namespace Cert.Gcn.ProjectRows

/-- The dimension numbers of the first product: [5000, 512] × [512, 16], contracting axis 1 with axis 0. -/
abbrev dims16 : DotDims S5000x512 S512x16 S5000x16 := dot_S5000x512_S512x16_S5000x16_1_0_0_1_n_n

/-- The dimension numbers of the second product: [5000, 16] × [16, 7], contracting axis 1 with axis 0. -/
abbrev dims7 : DotDims S5000x16 S16x7 S5000x7 := dot_S5000x16_S16x7_S5000x7_1_0_0_1_n_n

/-- The left operand's row coordinate is the output's row coordinate. -/
theorem lhs16_row (i : S5000x16.Idx) (c : dims16.contr.Idx) : (dims16.lhsIdx i c 0).val = (i 0).val := by
  unfold DotDims.lhsIdx
  rw [dif_neg (show ¬(0 : Fin S5000x512.rank) ∈ dims16.lhsBatch by decide),
    dif_pos (show (0 : Fin S5000x512.rank) ∈ dims16.lhsNonContracting by decide)]
  rfl

/-- The left operand's column coordinate is the contraction coordinate. -/
theorem lhs16_col (i : S5000x16.Idx) (c : dims16.contr.Idx) : (dims16.lhsIdx i c 1).val = (c ⟨0, by decide⟩).val :=
  dims16.lhsIdx_val_of_single rfl i c

/-- The right operand's row coordinate is the contraction coordinate. -/
theorem rhs16_row (i : S5000x16.Idx) (c : dims16.contr.Idx) : (dims16.rhsIdx i c 0).val = (c ⟨0, by decide⟩).val :=
  dims16.rhsIdx_val_of_single rfl i c

/-- The right operand's column coordinate is the output's column coordinate. -/
theorem rhs16_col (i : S5000x16.Idx) (c : dims16.contr.Idx) : (dims16.rhsIdx i c 1).val = (i 1).val := by
  unfold DotDims.rhsIdx
  rw [dif_neg (show ¬(1 : Fin S512x16.rank) ∈ dims16.rhsBatch by decide),
    dif_pos (show (1 : Fin S512x16.rank) ∈ dims16.rhsNonContracting by decide)]
  rfl

/-- Entry (p, q) of the first product is Σ_k x(p, k) · w(k, q), k over the 512 input features. -/
theorem payload16_apply (x0 : Vec Ideal S5000x512 .f32) (x1 : Vec Ideal S512x16 .f32) (p : Fin 5000) (q : Fin 16) :
    k0_pay1 (F := Ideal) x0 x1 (ix2 p q) = ∑ k : Fin 512, x0 (ix2 p k) * x1 (ix2 k q) := by
  unfold k0_pay1
  simp only [matmul]
  rw [Ideal.matmul_constant_zero_apply, ← Equiv.sum_comp (contrEquiv1 dims16 512 rfl rfl).symm]
  refine Finset.sum_congr rfl fun k _ => ?_
  have hk := contrEquiv1_symm_val dims16 512 rfl rfl k
  have el : dims16.lhsIdx (ix2 p q) ((contrEquiv1 dims16 512 rfl rfl).symm k) = ix2 p k :=
    funext fun a => Fin.ext (by
      match a with
      | ⟨0, _⟩ => exact lhs16_row _ _
      | ⟨1, _⟩ => exact (lhs16_col _ _).trans hk)
  have er : dims16.rhsIdx (ix2 p q) ((contrEquiv1 dims16 512 rfl rfl).symm k) = ix2 k q :=
    funext fun a => Fin.ext (by
      match a with
      | ⟨0, _⟩ => exact (rhs16_row _ _).trans hk
      | ⟨1, _⟩ => exact rhs16_col _ _)
  rw [el, er]
  rfl

/-- The left operand's row coordinate is the output's row coordinate. -/
theorem lhs7_row (i : S5000x7.Idx) (c : dims7.contr.Idx) : (dims7.lhsIdx i c 0).val = (i 0).val := by
  unfold DotDims.lhsIdx
  rw [dif_neg (show ¬(0 : Fin S5000x16.rank) ∈ dims7.lhsBatch by decide),
    dif_pos (show (0 : Fin S5000x16.rank) ∈ dims7.lhsNonContracting by decide)]
  rfl

/-- The left operand's column coordinate is the contraction coordinate. -/
theorem lhs7_col (i : S5000x7.Idx) (c : dims7.contr.Idx) : (dims7.lhsIdx i c 1).val = (c ⟨0, by decide⟩).val :=
  dims7.lhsIdx_val_of_single rfl i c

/-- The right operand's row coordinate is the contraction coordinate. -/
theorem rhs7_row (i : S5000x7.Idx) (c : dims7.contr.Idx) : (dims7.rhsIdx i c 0).val = (c ⟨0, by decide⟩).val :=
  dims7.rhsIdx_val_of_single rfl i c

/-- The right operand's column coordinate is the output's column coordinate. -/
theorem rhs7_col (i : S5000x7.Idx) (c : dims7.contr.Idx) : (dims7.rhsIdx i c 1).val = (i 1).val := by
  unfold DotDims.rhsIdx
  rw [dif_neg (show ¬(1 : Fin S16x7.rank) ∈ dims7.rhsBatch by decide),
    dif_pos (show (1 : Fin S16x7.rank) ∈ dims7.rhsNonContracting by decide)]
  rfl

/-- Entry (p, q) of the second product is Σ_k h(p, k) · w(k, q), k over the 16 hidden features. -/
theorem payload7_apply (x0 : Vec Ideal S5000x16 .f32) (x1 : Vec Ideal S16x7 .f32) (p : Fin 5000) (q : Fin 7) :
    k3_pay1 (F := Ideal) x0 x1 (ix2 p q) = ∑ k : Fin 16, x0 (ix2 p k) * x1 (ix2 k q) := by
  unfold k3_pay1
  simp only [matmul]
  rw [shapeCast_self, Ideal.matmul_constant_zero_apply, ← Equiv.sum_comp (contrEquiv1 dims7 16 rfl rfl).symm]
  refine Finset.sum_congr rfl fun k _ => ?_
  have hk := contrEquiv1_symm_val dims7 16 rfl rfl k
  have el : dims7.lhsIdx (ix2 p q) ((contrEquiv1 dims7 16 rfl rfl).symm k) = ix2 p k :=
    funext fun a => Fin.ext (by
      match a with
      | ⟨0, _⟩ => exact lhs7_row _ _
      | ⟨1, _⟩ => exact (lhs7_col _ _).trans hk)
  have er : dims7.rhsIdx (ix2 p q) ((contrEquiv1 dims7 16 rfl rfl).symm k) = ix2 k q :=
    funext fun a => Fin.ext (by
      match a with
      | ⟨0, _⟩ => exact (rhs7_row _ _).trans hk
      | ⟨1, _⟩ => exact rhs7_col _ _)
  rw [el, er]
  rfl

end Cert.Gcn.ProjectRows

end
-- ==== Proof.ProjectedRows16.lean ====
/-
  The first layer's projection. The region walks the 100,000 nodes in 20 blocks of 5000 rows: at point t it holds rows
  5000·t … 5000·t + 4999 of the node features and the whole 512 × 16 weight matrix, and writes back their product: entry (p, q)
  of the block is Σ_k x(5000·t + p, k) · w(k, q). Block t of the result is block t of ONE function of the two whole arrays,
  `project16`, the 20 blocks tile the result, and the array the region leaves is that function of the arrays it was entered with.
-/
import proofs.«169625_j37941741093230_2_alg».proof.Proof.Gen.KernelIdeal.Frame
import proofs.«169625_j37941741093230_2_alg».proof.Proof.DenseStages
import proofs.«169625_j37941741093230_2_alg».proof.Proof.ProjectRows
import Idealize.ShloMosaic.Lib.Pipeline.Value
import Idealize.ShloMosaic.Lib.ValueIdx

set_option maxRecDepth 16384

noncomputable section

namespace Cert.Gcn.ProjectedRows16

open Idealize.ShloMosaic Idealize.ShloMosaic.TcCoe Idealize.SL.Sem Idealize.ShloMosaic.ValueIdx
open Cert.KernelIdeal Cert.KernelIdeal.Gen Cert.Gcn

-- The buffer contents the region is entered with: a parameter, so that the statement serves at whatever the earlier
-- segments of the program have left.
variable (V : (c : Dev nD) → (b : Ref sig .tc) → Buf (Elt Ideal) ((c : Thread nD τ).loc b))

theorem zero_offsets : (![0, 0] : Fin 2 → Nat) = fun _ => 0 := funext fun a => by fin_cases a <;> rfl

/-- The stored entry is the whole arrays' function at the array index `i`, once the block's row p is the left operand's row
    `i 0` and the weight matrix's column q its column `i 1`. -/
theorem entry_eq (A0 : FVec Ideal S100000x512 .f32) (A1 : FVec Ideal S512x16 .f32) (x0 : Vec Ideal S5000x512 .f32) (x1 : Vec Ideal S512x16 .f32)
    (p : Fin 5000) (q : Fin 16) (i : S100000x16.Idx) (h0 : ∀ k : Fin 512, x0 (ix2 p k) = A0 (ix2 (i 0) k))
    (h1 : ∀ k : Fin 512, x1 (ix2 k q) = A1 (ix2 k (i 1))) :
    k0_pay1 (F := Ideal) x0 x1 (ix2 p q) = project16 A0 A1 i := by
  rw [ProjectRows.payload16_apply]
  exact Finset.sum_congr rfl fun k _ => by rw [h0 k, h1 k]

/-- The printed index maps over the grid: at point t the left operand's window and the result window sit at block row t,
    block column 0; the weight matrix's window at its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `project16` of the two arrays as the region finds them: row 5000·t + p of the left
    operand against column q of the weight matrix. -/
theorem flushed_eq (c : Dev nD) (t : Fin cfg0.N) :
    (dat0 V c).flushed 2 t = ((cfg0.win 2).blk t).view.read (Elt Ideal)
      (project16 (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x16) zero_offsets]
  obtain ⟨e0, e1, e2, e3, e4, e5⟩ := index_facts t
  funext j
  obtain ⟨p, q, rfl⟩ : ∃ (p : Fin 5000) (q : Fin 16), j = ix2 p q := ⟨j 0, j 1, eq_ix2 j⟩
  refine entry_eq (V c (Pipeline.arrRef spec0 0)) (V c (Pipeline.arrRef spec0 1)) (iblk0 V c 0 t) (iblk0 V c 1 t) p q
    (((cfg0.win 2).blk t).view.emb (ix2 p q)) (fun k => ?_) (fun k => ?_)
  · show V c (Pipeline.arrRef spec0 0) (((cfg0.win 0).blk t).view.emb (ix2 p k)) = V c (Pipeline.arrRef spec0 0) (ix2 ((((cfg0.win 2).blk t).view.emb (ix2 p q)) 0) k)
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 512 + 1 * k.val = k.val; omega
  · show V c (Pipeline.arrRef spec0 1) (((cfg0.win 1).blk t).view.emb (ix2 k q)) = V c (Pipeline.arrRef spec0 1) (ix2 k ((((cfg0.win 2).blk t).view.emb (ix2 p q)) 1))
    refine congrArg _ (funext fun a => Fin.ext ?_)
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega

/-- An index of the result array is in point t's block iff each coordinate is in the block's range on its axis. -/
theorem mem_block (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v31).slice (win0_2.rect t)).set ↔ _
  rw [View.set_slice_whole, Rect.mem_set_unit]
  exact Iff.rfl

/-- Every row r of the result lies in the block of point r / 5000: the blocks tile the array. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := index_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The array the region leaves: the left operand times the weight matrix. -/
theorem array_eq (c : Dev nD) :
    (dat0 V c).arrAt 2 cfg0.N = project16 (V c (Pipeline.arrRef spec0 0)) (V c (Pipeline.arrRef spec0 1)) :=
  (dat0 V c).arrAt_eq_of_cover 2 _ (fun t _ => flushed_eq V c t) covered

end Cert.Gcn.ProjectedRows16

end
-- ==== Proof.ScaledRows16.lean ====
/-
  Scaling the gathered rows, 16 features. The region walks the 3,300,000 edges in 660 blocks of 5000: at point t it holds
  rows 5000·t … 5000·t + 4999 of the gathered array and of the coefficient column, and writes back each row times its
  coefficient. Block t of the result is therefore block t of ONE function of the two whole arrays, `scale16`, the 660
  blocks tile the result, and the array the region leaves is that function of the arrays it was entered with.
-/
import proofs.«169625_j37941741093230_2_alg».proof.Proof.Gen.KernelIdeal.Frame
import proofs.«169625_j37941741093230_2_alg».proof.Proof.DenseStages
import Idealize.ShloMosaic.Lib.Pipeline.Value
import Idealize.ShloMosaic.Lib.ValueIdx

set_option maxRecDepth 16384

noncomputable section

namespace Cert.Gcn.ScaledRows16

open Idealize.ShloMosaic Idealize.ShloMosaic.TcCoe Idealize.SL.Sem Idealize.ShloMosaic.ValueIdx
open Cert.KernelIdeal Cert.KernelIdeal.Gen Cert.Gcn

-- The buffer contents the region is entered with: a parameter, so that the statement serves at whatever the earlier
-- segments of the program have left.
variable (V : (c : Dev nD) → (b : Ref sig .tc) → Buf (Elt Ideal) ((c : Thread nD τ).loc b))

theorem zero_offsets : (![0, 0] : Fin 2 → Nat) = fun _ => 0 := funext fun a => by fin_cases a <;> rfl

/-- An entry of the block the body stores: the gathered entry times the coefficient of its row. -/
theorem payload_apply (x0 : Vec Ideal S5000x16 .f32) (x1 : Vec Ideal S5000x1 .f32) (p : Fin 5000) (q : Fin 16) :
    k1_pay1 (F := Ideal) x0 x1 (ix2 p q) = x0 (ix2 p q) * x1 (ix2 p (0 : Fin 1)) := by
  unfold k1_pay1
  show (shapeCast S5000x16 x0 shapeCasts_S5000x16_S5000x16) (ix2 p q)
      * (broadcastTo S5000x16 (shapeCast S5000x1 x1 shapeCasts_S5000x1_S5000x1) broadcasts_S5000x1_S5000x16) (ix2 p q) = _
  rw [shapeCast_self, shapeCast_self]
  exact congrArg (x0 (ix2 p q) * ·) (broadcastTo_apply x1 broadcasts_S5000x1_S5000x16 (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl]))

/-- The stored entry is the whole arrays' function at the array index `i`, once the block's entry is the gathered array's at `i`
    and the block's coefficient is the coefficient of `i`'s row. -/
theorem entry_eq (A0 : FVec Ideal S3300000x16 .f32) (A1 : FVec Ideal S3300000x1 .f32) (x0 : Vec Ideal S5000x16 .f32) (x1 : Vec Ideal S5000x1 .f32)
    (p : Fin 5000) (q : Fin 16) (i : S3300000x16.Idx) (h0 : x0 (ix2 p q) = A0 i) (h1 : x1 (ix2 p (0 : Fin 1)) = A1 (ix2 (i 0) (0 : Fin 1))) :
    k1_pay1 (F := Ideal) x0 x1 (ix2 p q) = scale16 A0 A1 i := by
  rw [payload_apply, h0, h1]; rfl

/-- The printed index maps over the grid: at point t all three windows sit at block row t, block column 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of `scale16` of the two arrays as the region finds them. -/
theorem flushed_eq (c : Dev nD) (t : Fin cfg1.N) :
    (dat1 V c).flushed 2 t = ((cfg1.win 2).blk t).view.read (Elt Ideal)
      (scale16 (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S5000x16) zero_offsets, View.ld_unit_zero (S := S5000x1) zero_offsets]
  obtain ⟨e0, e1, e2, e3, e4, e5⟩ := index_facts t
  funext j
  obtain ⟨p, q, rfl⟩ : ∃ (p : Fin 5000) (q : Fin 16), j = ix2 p q := ⟨j 0, j 1, eq_ix2 j⟩
  refine entry_eq (V c (Pipeline.arrRef spec1 0)) (V c (Pipeline.arrRef spec1 1)) (iblk1 V c 0 t) (iblk1 V c 1 t) p q
    (((cfg1.win 2).blk t).view.emb (ix2 p q)) ?_ ?_
  · show V c (Pipeline.arrRef spec1 0) (((cfg1.win 0).blk t).view.emb (ix2 p q)) = V c (Pipeline.arrRef spec1 0) (((cfg1.win 2).blk t).view.emb (ix2 p q))
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 16 + 1 * q.val = win1_2.index t (1 : Fin 2) * 16 + 1 * q.val; omega
  · show V c (Pipeline.arrRef spec1 1) (((cfg1.win 1).blk t).view.emb (ix2 p (0 : Fin 1)))
      = V c (Pipeline.arrRef spec1 1) (ix2 ((((cfg1.win 2).blk t).view.emb (ix2 p q)) 0) (0 : Fin 1))
    refine congrArg _ (funext fun a => Fin.ext ?_)
    match a with
    | ⟨0, _⟩ => show win1_1.index t (0 : Fin 2) * 5000 + 1 * p.val = win1_2.index t (0 : Fin 2) * 5000 + 1 * p.val; omega
    | ⟨1, _⟩ => show win1_1.index t (1 : Fin 2) * 1 + 1 * 0 = 0; omega

/-- An index of the result array is in point t's block iff each coordinate is in the block's range on its axis. -/
theorem mem_block (t : Fin cfg1.N) (i : S3300000x16.Idx) :
    i ∈ ((cfg1.win 2).blk t).view.set ↔ ∀ a : Fin 2, win1_2.index t a * S5000x16.size a ≤ (i a).val
      ∧ (i a).val < win1_2.index t a * S5000x16.size a + S5000x16.size a := by
  show i ∈ ((View.whole main_v39).slice (win1_2.rect t)).set ↔ _
  rw [View.set_slice_whole, Rect.mem_set_unit]
  exact Iff.rfl

/-- Every row r of the result lies in the block of point r / 5000: the blocks tile the array. -/
theorem covered (i : S3300000x16.Idx) :
    ∃ t : Fin cfg1.N, (cfg1.win 2).flush t = true ∧ i ∈ ((cfg1.win 2).blk t).view.set := by
  have hi0 : (i 0).val < 3300000 := (i 0).isLt
  have hi1 : (i 1).val < 16 := (i 1).isLt
  have hN : cfg1.N = 660 := N_1
  obtain ⟨t, ht⟩ : ∃ t : Fin cfg1.N, t.val = (i 0).val / 5000 := ⟨⟨(i 0).val / 5000, by rw [hN]; omega⟩, rfl⟩
  obtain ⟨e0, e1, e2, e3, e4, e5⟩ := index_facts t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- The array the region leaves: every gathered row times its coefficient. -/
theorem array_eq (c : Dev nD) :
    (dat1 V c).arrAt 2 cfg1.N = scale16 (V c (Pipeline.arrRef spec1 0)) (V c (Pipeline.arrRef spec1 1)) :=
  (dat1 V c).arrAt_eq_of_cover 2 _ (fun t _ => flushed_eq V c t) covered

end Cert.Gcn.ScaledRows16

end
-- ==== Proof.BiasedRelu.lean ====
/-
  The first layer's end. The region walks the 100,000 nodes in 20 blocks of 5000 rows: at point t it holds rows
  5000·t … 5000·t + 4999 of the summed messages and the whole bias vector, and writes back, entry by entry, the larger of
  (message + bias of its column) and the zero word's value. Block t of the result is block t of ONE function of the two
  whole arrays, `biasRelu`, the 20 blocks tile the result, and the array the region leaves is that function of the arrays
  it was entered with.
-/
import proofs.«169625_j37941741093230_2_alg».proof.Proof.Gen.KernelIdeal.Frame
import proofs.«169625_j37941741093230_2_alg».proof.Proof.DenseStages
import Idealize.ShloMosaic.Lib.ValueLayout
import Idealize.ShloMosaic.Lib.Pipeline.Value
import Idealize.ShloMosaic.Lib.ValueIdx

set_option maxRecDepth 16384

noncomputable section

namespace Cert.Gcn.BiasedRelu

open Idealize.ShloMosaic Idealize.ShloMosaic.TcCoe Idealize.SL.Sem Idealize.ShloMosaic.ValueIdx
open Cert.KernelIdeal Cert.KernelIdeal.Gen Cert.Gcn

-- The buffer contents the region is entered with: a parameter, so that the statement serves at whatever the earlier
-- segments of the program have left.
variable (V : (c : Dev nD) → (b : Ref sig .tc) → Buf (Elt Ideal) ((c : Thread nD τ).loc b))

theorem zero_offsets : (![0, 0] : Fin 2 → Nat) = fun _ => 0 := funext fun a => by fin_cases a <;> rfl

theorem zero_offset : (![0] : Fin 1 → Nat) = fun _ => 0 := funext fun a => by fin_cases a; rfl

/-- An entry of the block the body stores: the larger of (entry + its column's bias) and the zero word's value. -/
theorem payload_apply (x0 : Vec Ideal S5000x16 .f32) (x1 : Vec Ideal S16 .f32) (p : Fin 5000) (q : Fin 16) :
    k2_pay1 (F := Ideal) x0 x1 (ix2 p q) = max (x0 (ix2 p q) + x1 (ix1 q)) (Ideal.ofBits .f32 0x00000000#32) := by
  unfold k2_pay1
  show max ((shapeCast S5000x16 x0 shapeCasts_S5000x16_S5000x16) (ix2 p q)
      + (broadcastTo S5000x16 (shapeCast S1x16 x1 shapeCasts_S16_S1x16) broadcasts_S1x16_S5000x16) (ix2 p q)) (Ideal.ofBits .f32 0x00000000#32) = _
  rw [shapeCast_self, broadcastTo_1b_ab_apply (shapeCast S1x16 x1 shapeCasts_S16_S1x16) broadcasts_S1x16_S5000x16 p q,
    shapeCast_a_1a_apply x1 shapeCasts_S16_S1x16 (0 : Fin 1) q]

/-- The stored entry is the whole arrays' function at the array index `i`, once the block's entry is the message array's at `i`
    and the bias is read at `i`'s column. -/
theorem entry_eq (A0 : FVec Ideal S100000x16 .f32) (A1 : FVec Ideal S16 .f32) (x0 : Vec Ideal S5000x16 .f32) (x1 : Vec Ideal S16 .f32)
    (p : Fin 5000) (q : Fin 16) (i : S100000x16.Idx) (h0 : x0 (ix2 p q) = A0 i) (h1 : x1 (ix1 q) = A1 (ix1 (i 1))) :
    k2_pay1 (F := Ideal) x0 x1 (ix2 p q) = biasRelu A0 A1 i := by
  rw [payload_apply, h0, h1]; rfl

/-- The printed index maps over the grid: at point t the message window and the result window sit at block row t,
    block column 0; the bias window at its one block. -/
theorem index_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point t writes back is block t of `biasRelu` of the two arrays as the region finds them. -/
theorem flushed_eq (c : Dev nD) (t : Fin cfg2.N) :
    (dat2 V c).flushed 2 t = ((cfg2.win 2).blk t).view.read (Elt Ideal)
      (biasRelu (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x16) zero_offsets, View.ld_unit_zero (S := S16) zero_offset]
  obtain ⟨e0, e1, e2, e3, e4⟩ := index_facts t
  funext j
  obtain ⟨p, q, rfl⟩ : ∃ (p : Fin 5000) (q : Fin 16), j = ix2 p q := ⟨j 0, j 1, eq_ix2 j⟩
  refine entry_eq (V c (Pipeline.arrRef spec2 0)) (V c (Pipeline.arrRef spec2 1)) (iblk2 V c 0 t) (iblk2 V c 1 t) p q
    (((cfg2.win 2).blk t).view.emb (ix2 p q)) ?_ ?_
  · show V c (Pipeline.arrRef spec2 0) (((cfg2.win 0).blk t).view.emb (ix2 p q)) = V c (Pipeline.arrRef spec2 0) (((cfg2.win 2).blk t).view.emb (ix2 p q))
    refine congrArg _ (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 16 + 1 * q.val = win2_2.index t (1 : Fin 2) * 16 + 1 * q.val; omega
  · show V c (Pipeline.arrRef spec2 1) (((cfg2.win 1).blk t).view.emb (ix1 q)) = V c (Pipeline.arrRef spec2 1) (ix1 ((((cfg2.win 2).blk t).view.emb (ix2 p q)) 1))
    refine congrArg _ (funext fun a => Fin.ext ?_)
    match a with
    | ⟨0, _⟩ => show win2_1.index t (0 : Fin 1) * 16 + 1 * q.val = win2_2.index t (1 : Fin 2) * 16 + 1 * q.val; omega

/-- An index of the result array is in point t's block iff each coordinate is in the block's range on its axis. -/
theorem mem_block (t : Fin cfg2.N) (i : S100000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v43).slice (win2_2.rect t)).set ↔ _
  rw [View.set_slice_whole, Rect.mem_set_unit]
  exact Iff.rfl

/-- Every row r of the result lies in the block of point r / 5000: the blocks tile the array. -/
theorem covered (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e0, e1, e2, e3, e4⟩ := index_facts t
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- The array the region leaves: the summed messages with the bias added, cut off below at the zero word's value. -/
theorem array_eq (c : Dev nD) :
    (dat2 V c).arrAt 2 cfg2.N = biasRelu (V c (Pipeline.arrRef spec2 0)) (V c (Pipeline.arrRef spec2 1)) :=
  (dat2 V c).arrAt_eq_of_cover 2 _ (fun t _ => flushed_eq V c t) covered

end Cert.Gcn.BiasedRelu

end
-- ==== Proof.ProjectedRows7.lean ====
/-
  The second layer's projection. The region walks the 100,000 nodes in 20 blocks of 5000 rows: at point t it holds rows
  5000·t … 5000·t + 4999 of the hidden features and the whole 16 × 7 weight matrix, and writes back their product: entry (p, q)
  of the block is Σ_k h(5000·t + p, k) · w(k, q). Block t of the result is block t of ONE function of the two whole arrays,
  `project7`, the 20 blocks tile the result, and the array the region leaves is that function of the arrays it was entered with.
-/
import proofs.«169625_j37941741093230_2_alg».proof.Proof.Gen.KernelIdeal.Frame
import proofs.«169625_j37941741093230_2_alg».proof.Proof.DenseStages
import proofs.«169625_j37941741093230_2_alg».proof.Proof.ProjectRows
import Idealize.ShloMosaic.Lib.Pipeline.Value
import Idealize.ShloMosaic.Lib.ValueIdx

set_option maxRecDepth 16384

noncomputable section

namespace Cert.Gcn.ProjectedRows7

open Idealize.ShloMosaic Idealize.ShloMosaic.TcCoe Idealize.SL.Sem Idealize.ShloMosaic.ValueIdx
open Cert.KernelIdeal Cert.KernelIdeal.Gen Cert.Gcn

-- The buffer contents the region is entered with: a parameter, so that the statement serves at whatever the earlier
-- segments of the program have left.
variable (V : (c : Dev nD) → (b : Ref sig .tc) → Buf (Elt Ideal) ((c : Thread nD τ).loc b))

theorem zero_offsets : (![0, 0] : Fin 2 → Nat) = fun _ => 0 := funext fun a => by fin_cases a <;> rfl

/-- The stored entry is the whole arrays' function at the array index `i`, once the block's row p is the left operand's row
    `i 0` and the weight matrix's column q its column `i 1`. -/
theorem entry_eq (A0 : FVec Ideal S100000x16 .f32) (A1 : FVec Ideal S16x7 .f32) (x0 : Vec Ideal S5000x16 .f32) (x1 : Vec Ideal S16x7 .f32)
    (p : Fin 5000) (q : Fin 7) (i : S100000x7.Idx) (h0 : ∀ k : Fin 16, x0 (ix2 p k) = A0 (ix2 (i 0) k))
    (h1 : ∀ k : Fin 16, x1 (ix2 k q) = A1 (ix2 k (i 1))) :
    k3_pay1 (F := Ideal) x0 x1 (ix2 p q) = project7 A0 A1 i := by
  rw [ProjectRows.payload7_apply]
  exact Finset.sum_congr rfl fun k _ => by rw [h0 k, h1 k]

/-- The printed index maps over the grid: at point t the left operand's window and the result window sit at block row t,
    block column 0; the weight matrix's window at its one block. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `project7` of the two arrays as the region finds them: row 5000·t + p of the left
    operand against column q of the weight matrix. -/
theorem flushed_eq (c : Dev nD) (t : Fin cfg3.N) :
    (dat3 V c).flushed 2 t = ((cfg3.win 2).blk t).view.read (Elt Ideal)
      (project7 (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S5000x16) zero_offsets, View.ld_unit_zero (S := S16x7) zero_offsets]
  obtain ⟨e0, e1, e2, e3, e4, e5⟩ := index_facts t
  funext j
  obtain ⟨p, q, rfl⟩ : ∃ (p : Fin 5000) (q : Fin 7), j = ix2 p q := ⟨j 0, j 1, eq_ix2 j⟩
  refine entry_eq (V c (Pipeline.arrRef spec3 0)) (V c (Pipeline.arrRef spec3 1)) (iblk3 V c 0 t) (iblk3 V c 1 t) p q
    (((cfg3.win 2).blk t).view.emb (ix2 p q)) (fun k => ?_) (fun k => ?_)
  · show V c (Pipeline.arrRef spec3 0) (((cfg3.win 0).blk t).view.emb (ix2 p k)) = V c (Pipeline.arrRef spec3 0) (ix2 ((((cfg3.win 2).blk t).view.emb (ix2 p q)) 0) k)
    refine congrArg _ (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 16 + 1 * k.val = k.val; omega
  · show V c (Pipeline.arrRef spec3 1) (((cfg3.win 1).blk t).view.emb (ix2 k q)) = V c (Pipeline.arrRef spec3 1) (ix2 k ((((cfg3.win 2).blk t).view.emb (ix2 p q)) 1))
    refine congrArg _ (funext fun a => Fin.ext ?_)
    match a with
    | ⟨0, _⟩ => show win3_1.index t (0 : Fin 2) * 16 + 1 * k.val = k.val; omega
    | ⟨1, _⟩ => show win3_1.index t (1 : Fin 2) * 7 + 1 * q.val = win3_2.index t (1 : Fin 2) * 7 + 1 * q.val; omega

/-- An index of the result array is in point t's block iff each coordinate is in the block's range on its axis. -/
theorem mem_block (t : Fin cfg3.N) (i : S100000x7.Idx) :
    i ∈ ((cfg3.win 2).blk t).view.set ↔ ∀ a : Fin 2, win3_2.index t a * S5000x7.size a ≤ (i a).val
      ∧ (i a).val < win3_2.index t a * S5000x7.size a + S5000x7.size a := by
  show i ∈ ((View.whole main_v44).slice (win3_2.rect t)).set ↔ _
  rw [View.set_slice_whole, Rect.mem_set_unit]
  exact Iff.rfl

/-- Every row r of the result lies in the block of point r / 5000: the blocks tile the array. -/
theorem covered (i : S100000x7.Idx) :
    ∃ t : Fin cfg3.N, (cfg3.win 2).flush t = true ∧ i ∈ ((cfg3.win 2).blk t).view.set := by
  have hi0 : (i 0).val < 100000 := (i 0).isLt
  have hi1 : (i 1).val < 7 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5⟩ := index_facts t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 7 ≤ (i 1).val ∧ (i 1).val < win3_2.index t (1 : Fin 2) * 7 + 7; omega

/-- The array the region leaves: the left operand times the weight matrix. -/
theorem array_eq (c : Dev nD) :
    (dat3 V c).arrAt 2 cfg3.N = project7 (V c (Pipeline.arrRef spec3 0)) (V c (Pipeline.arrRef spec3 1)) :=
  (dat3 V c).arrAt_eq_of_cover 2 _ (fun t _ => flushed_eq V c t) covered

end Cert.Gcn.ProjectedRows7

end
-- ==== Proof.ScaledRows7.lean ====
/-
  Scaling the gathered rows, 7 features. The region walks the 3,300,000 edges in 660 blocks of 5000: at point t it holds
  rows 5000·t … 5000·t + 4999 of the gathered array and of the coefficient column, and writes back each row times its
  coefficient. Block t of the result is therefore block t of ONE function of the two whole arrays, `scale7`, the 660
  blocks tile the result, and the array the region leaves is that function of the arrays it was entered with.
-/
import proofs.«169625_j37941741093230_2_alg».proof.Proof.Gen.KernelIdeal.Frame
import proofs.«169625_j37941741093230_2_alg».proof.Proof.DenseStages
import Idealize.ShloMosaic.Lib.Pipeline.Value
import Idealize.ShloMosaic.Lib.ValueIdx

set_option maxRecDepth 16384

noncomputable section

namespace Cert.Gcn.ScaledRows7

open Idealize.ShloMosaic Idealize.ShloMosaic.TcCoe Idealize.SL.Sem Idealize.ShloMosaic.ValueIdx
open Cert.KernelIdeal Cert.KernelIdeal.Gen Cert.Gcn

-- The buffer contents the region is entered with: a parameter, so that the statement serves at whatever the earlier
-- segments of the program have left.
variable (V : (c : Dev nD) → (b : Ref sig .tc) → Buf (Elt Ideal) ((c : Thread nD τ).loc b))

theorem zero_offsets : (![0, 0] : Fin 2 → Nat) = fun _ => 0 := funext fun a => by fin_cases a <;> rfl

/-- An entry of the block the body stores: the gathered entry times the coefficient of its row. -/
theorem payload_apply (x0 : Vec Ideal S5000x7 .f32) (x1 : Vec Ideal S5000x1 .f32) (p : Fin 5000) (q : Fin 7) :
    k4_pay1 (F := Ideal) x0 x1 (ix2 p q) = x0 (ix2 p q) * x1 (ix2 p (0 : Fin 1)) := by
  unfold k4_pay1
  show (shapeCast S5000x7 x0 shapeCasts_S5000x7_S5000x7) (ix2 p q)
      * (broadcastTo S5000x7 (shapeCast S5000x1 x1 shapeCasts_S5000x1_S5000x1) broadcasts_S5000x1_S5000x7) (ix2 p q) = _
  rw [shapeCast_self, shapeCast_self]
  exact congrArg (x0 (ix2 p q) * ·) (broadcastTo_apply x1 broadcasts_S5000x1_S5000x7 (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl]))

/-- The stored entry is the whole arrays' function at the array index `i`, once the block's entry is the gathered array's at `i`
    and the block's coefficient is the coefficient of `i`'s row. -/
theorem entry_eq (A0 : FVec Ideal S3300000x7 .f32) (A1 : FVec Ideal S3300000x1 .f32) (x0 : Vec Ideal S5000x7 .f32) (x1 : Vec Ideal S5000x1 .f32)
    (p : Fin 5000) (q : Fin 7) (i : S3300000x7.Idx) (h0 : x0 (ix2 p q) = A0 i) (h1 : x1 (ix2 p (0 : Fin 1)) = A1 (ix2 (i 0) (0 : Fin 1))) :
    k4_pay1 (F := Ideal) x0 x1 (ix2 p q) = scale7 A0 A1 i := by
  rw [payload_apply, h0, h1]; rfl

/-- The printed index maps over the grid: at point t all three windows sit at block row t, block column 0. -/
theorem index_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of `scale7` of the two arrays as the region finds them. -/
theorem flushed_eq (c : Dev nD) (t : Fin cfg4.N) :
    (dat4 V c).flushed 2 t = ((cfg4.win 2).blk t).view.read (Elt Ideal)
      (scale7 (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x7) zero_offsets, View.ld_unit_zero (S := S5000x1) zero_offsets]
  obtain ⟨e0, e1, e2, e3, e4, e5⟩ := index_facts t
  funext j
  obtain ⟨p, q, rfl⟩ : ∃ (p : Fin 5000) (q : Fin 7), j = ix2 p q := ⟨j 0, j 1, eq_ix2 j⟩
  refine entry_eq (V c (Pipeline.arrRef spec4 0)) (V c (Pipeline.arrRef spec4 1)) (iblk4 V c 0 t) (iblk4 V c 1 t) p q
    (((cfg4.win 2).blk t).view.emb (ix2 p q)) ?_ ?_
  · show V c (Pipeline.arrRef spec4 0) (((cfg4.win 0).blk t).view.emb (ix2 p q)) = V c (Pipeline.arrRef spec4 0) (((cfg4.win 2).blk t).view.emb (ix2 p q))
    refine congrArg _ (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 7 + 1 * q.val = win4_2.index t (1 : Fin 2) * 7 + 1 * q.val; omega
  · show V c (Pipeline.arrRef spec4 1) (((cfg4.win 1).blk t).view.emb (ix2 p (0 : Fin 1)))
      = V c (Pipeline.arrRef spec4 1) (ix2 ((((cfg4.win 2).blk t).view.emb (ix2 p q)) 0) (0 : Fin 1))
    refine congrArg _ (funext fun a => Fin.ext ?_)
    match a with
    | ⟨0, _⟩ => show win4_1.index t (0 : Fin 2) * 5000 + 1 * p.val = win4_2.index t (0 : Fin 2) * 5000 + 1 * p.val; omega
    | ⟨1, _⟩ => show win4_1.index t (1 : Fin 2) * 1 + 1 * 0 = 0; omega

/-- An index of the result array is in point t's block iff each coordinate is in the block's range on its axis. -/
theorem mem_block (t : Fin cfg4.N) (i : S3300000x7.Idx) :
    i ∈ ((cfg4.win 2).blk t).view.set ↔ ∀ a : Fin 2, win4_2.index t a * S5000x7.size a ≤ (i a).val
      ∧ (i a).val < win4_2.index t a * S5000x7.size a + S5000x7.size a := by
  show i ∈ ((View.whole main_v52).slice (win4_2.rect t)).set ↔ _
  rw [View.set_slice_whole, Rect.mem_set_unit]
  exact Iff.rfl

/-- Every row r of the result lies in the block of point r / 5000: the blocks tile the array. -/
theorem covered (i : S3300000x7.Idx) :
    ∃ t : Fin cfg4.N, (cfg4.win 2).flush t = true ∧ i ∈ ((cfg4.win 2).blk t).view.set := by
  have hi0 : (i 0).val < 3300000 := (i 0).isLt
  have hi1 : (i 1).val < 7 := (i 1).isLt
  have hN : cfg4.N = 660 := N_4
  obtain ⟨t, ht⟩ : ∃ t : Fin cfg4.N, t.val = (i 0).val / 5000 := ⟨⟨(i 0).val / 5000, by rw [hN]; omega⟩, rfl⟩
  obtain ⟨e0, e1, e2, e3, e4, e5⟩ := index_facts t
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 7 ≤ (i 1).val ∧ (i 1).val < win4_2.index t (1 : Fin 2) * 7 + 7; omega

/-- The array the region leaves: every gathered row times its coefficient. -/
theorem array_eq (c : Dev nD) :
    (dat4 V c).arrAt 2 cfg4.N = scale7 (V c (Pipeline.arrRef spec4 0)) (V c (Pipeline.arrRef spec4 1)) :=
  (dat4 V c).arrAt_eq_of_cover 2 _ (fun t _ => flushed_eq V c t) covered

end Cert.Gcn.ScaledRows7

end
-- ==== Proof.LogSoftmaxRow.lean ====
/-
  The logarithmic softmax of a biased row, as one block of the last kernel computes it. With z l = x(p, l) + b(l) the
  seven biased numbers of row p and M their largest, folded from −∞, the block's entry (p, q) is
  (z q − M) − log Σ_l exp (z l − M). The bias row, the row maximum, the lane sum and the two column broadcasts are each
  read at explicit coordinates; the entry is their composition.
-/
import proofs.«169625_j37941741093230_2_alg».proof.Proof.Gen.KernelIdeal.Skeleton
import proofs.«169625_j37941741093230_2_alg».proof.Proof.DenseStages
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.LogSoftmaxRow

open Idealize.ShloMosaic Idealize.ShloMosaic.ValueIdx Cert.KernelIdeal Cert.KernelIdeal.Gen Cert.Gcn

/-! ## Two layout forms: a vector as a column, and a column spread over the lanes -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The operations of the block that are not entry by entry -/

/-- The bias, laid out as one row and spread over the 5000 rows, reads at `(p, l)` the bias at `l`. -/
theorem biasRow_apply (b : Vec Ideal S7 .f32) (hc : S7.ShapeCasts S1x7) (hb : S1x7.Broadcasts S5000x7)
    (p : Fin 5000) (l : Fin 7) :
    broadcastTo S5000x7 (shapeCast S1x7 b hc) hb (ix2 p l) = b (ix1 l) :=
  (broadcastTo_1b_ab_apply _ hb p l).trans (shapeCast_a_1a_apply b hc 0 l)

/-- The index of row `p` with lane `l` put back on the reduced axis is `(p, l)`. -/
theorem lift_row (h : S5000x7.Reduces [1] S5000) (p : Fin 5000) (l : Fin 7) : h.lift (ix1 p) l = ix2 p l :=
  funext fun c => Fin.ext (by match c with | ⟨0, _⟩ => rfl | ⟨1, _⟩ => rfl)

/-- The maximum over the lanes, from the word of −∞, is at row `p` the largest of that row's seven entries. -/
theorem laneMax_apply (v : FVec Ideal S5000x7 .f32) (h : S5000x7.Reduces [1] S5000) (hφ : FKind.Formats .f32)
    (hacc : (0xFF800000#32 : BitVec 32) = FKind.maximumf.neutral .f32 hφ) (p : Fin 5000) :
    multiReduction .maximumf [1] S5000 v 0xFF800000#32 h hφ hacc (ix1 p) = rowMax (fun l : Fin 7 => v (ix2 p l)) := by
  refine (Ideal.multiReduction_maximumf_single v 0xFF800000#32 h hφ hacc (ix1 p)).trans ?_
  unfold rowMax
  exact congrArg (Finset.fold max (Ideal.ofBits .f32 0xFF800000#32) · (Finset.univ : Finset (Fin 7)))
    (funext fun l => congrArg v (lift_row h p l))

/-- The sum over the lanes, from the zero word, is at row `p` the sum of that row's seven entries. -/
theorem laneSum_apply (v : FVec Ideal S5000x7 .f32) (h : S5000x7.Reduces [1] S5000) (hφ : FKind.Formats .f32)
    (hacc : (0x00000000#32 : BitVec 32) = FKind.add.neutral .f32 hφ) (p : Fin 5000) :
    multiReduction .add [1] S5000 v 0x00000000#32 h hφ hacc (ix1 p) = ∑ l : Fin 7, v (ix2 p l) := by
  refine (Ideal.multiReduction_add_single v 0x00000000#32 h hφ hacc (ix1 p)).trans ?_
  exact Finset.sum_congr rfl fun l _ => congrArg v (lift_row h p l)

/-- A per-row number kept as a column and spread over the lanes reads, at `(p, l)`, row `p`'s number. -/
theorem column_apply (w : FVec Ideal S5000 .f32) (hc : S5000.ShapeCasts S5000x1) (hb : S5000x1.Broadcasts S5000x7)
    (p : Fin 5000) (l : Fin 7) :
    broadcastTo S5000x7 (shapeCast S5000x1 w hc) hb (ix2 p l) = w (ix1 p) :=
  (broadcastTo_a1_ab_apply _ hb p l).trans (shapeCast_a_a1_apply w hc p 0)

/-- The logarithm of a per-row number kept as a column, spread over the lanes, reads at `(p, l)` the logarithm of row
`p`'s number. -/
theorem logColumn_apply (w : FVec Ideal S5000 .f32) (hc : S5000.ShapeCasts S5000x1) (hb : S5000x1.Broadcasts S5000x7)
    (p : Fin 5000) (l : Fin 7) :
    broadcastTo S5000x7 (log (shapeCast S5000x1 w hc)) hb (ix2 p l) = Ideal.log (w (ix1 p)) :=
  (broadcastTo_a1_ab_apply _ hb p l).trans (congrArg Ideal.log (shapeCast_a_a1_apply w hc p 0))

/-! ## The block's entry -/

/-- The block with the bias added reads, at `(p, l)`, the summed message plus the bias at `l`. -/
theorem biased_apply (x : Vec Ideal S5000x7 .f32) (b : Vec Ideal S7 .f32) (h0 : S5000x7.ShapeCasts S5000x7)
    (hc : S7.ShapeCasts S1x7) (hb : S1x7.Broadcasts S5000x7) (p : Fin 5000) (l : Fin 7) :
    addf (F := Ideal) (φ := .f32) (shapeCast S5000x7 x h0) (broadcastTo S5000x7 (shapeCast S1x7 b hc) hb) (ix2 p l)
      = x (ix2 p l) + b (ix1 l) := by
  rw [addf_apply, shapeCast_self, biasRow_apply]

/-- The logarithmic softmax along the lanes of any 5000 × 7 block `z`: the row maximum taken off, then the logarithm
of the lane sum of the exponentials taken off. -/
theorem logSoftmaxBlock_apply (z : FVec Ideal S5000x7 .f32) (hr : S5000x7.Reduces [1] S5000) (hφ : FKind.Formats .f32)
    (hmax : (0xFF800000#32 : BitVec 32) = FKind.maximumf.neutral .f32 hφ)
    (hadd : (0x00000000#32 : BitVec 32) = FKind.add.neutral .f32 hφ)
    (hc : S5000.ShapeCasts S5000x1) (hb : S5000x1.Broadcasts S5000x7) (p : Fin 5000) (q : Fin 7) :
    subf (subf z (broadcastTo S5000x7 (shapeCast S5000x1 (multiReduction .maximumf [1] S5000 z 0xFF800000#32 hr hφ hmax) hc) hb))
        (broadcastTo S5000x7 (log (shapeCast S5000x1
          (multiReduction .add [1] S5000
            (exp (subf z (broadcastTo S5000x7 (shapeCast S5000x1 (multiReduction .maximumf [1] S5000 z 0xFF800000#32 hr hφ hmax) hc) hb)))
            0x00000000#32 hr hφ hadd) hc)) hb) (ix2 p q)
      = (z (ix2 p q) - rowMax (fun l : Fin 7 => z (ix2 p l)))
        - Ideal.log (∑ l : Fin 7, Ideal.exp (z (ix2 p l) - rowMax (fun l : Fin 7 => z (ix2 p l)))) := by
  have hs : ∀ l : Fin 7,
      subf z (broadcastTo S5000x7 (shapeCast S5000x1 (multiReduction .maximumf [1] S5000 z 0xFF800000#32 hr hφ hmax) hc) hb) (ix2 p l)
        = z (ix2 p l) - rowMax (fun l : Fin 7 => z (ix2 p l)) := fun l =>
    congrArg (z (ix2 p l) - ·) ((column_apply _ hc hb p l).trans (laneMax_apply z hr hφ hmax p))
  refine (subf_apply _ _ _).trans ?_
  refine congrArg₂ (· - ·) (hs q) ?_
  refine (logColumn_apply _ hc hb p q).trans (congrArg Ideal.log ?_)
  refine (laneSum_apply _ hr hφ hadd p).trans (Finset.sum_congr rfl fun l _ => ?_)
  exact congrArg Ideal.exp (hs l)

/-- Entry `(p, q)` of the block: with `z l = x0 (p, l) + x1 l` and `M` the largest of the seven,
`(z q − M) − log Σ_l exp (z l − M)`. -/
theorem payload_apply (x0 : Vec Ideal S5000x7 .f32) (x1 : Vec Ideal S7 .f32) (p : Fin 5000) (q : Fin 7) :
    k5_pay1 (F := Ideal) x0 x1 (ix2 p q)
      = ((x0 (ix2 p q) + x1 (ix1 q)) - rowMax (fun l : Fin 7 => x0 (ix2 p l) + x1 (ix1 l)))
        - Ideal.log (∑ l : Fin 7, Ideal.exp ((x0 (ix2 p l) + x1 (ix1 l)) - rowMax (fun l : Fin 7 => x0 (ix2 p l) + x1 (ix1 l)))) := by
  unfold k5_pay1
  refine (logSoftmaxBlock_apply _ _ _ _ _ _ _ p q).trans ?_
  simp only [biased_apply]

end Cert.Gcn.LogSoftmaxRow

end
-- ==== Proof.LogSoftmaxRows.lean ====
/-
  The second layer's end. The region walks the 100,000 nodes in 20 blocks of 5000 rows: at point t it holds rows
  5000·t … 5000·t + 4999 of the summed messages and the whole bias vector, and writes back the logarithmic softmax of each
  biased row: with z the row plus the bias and M its largest entry, entry q is (z q − M) − log Σ_l exp (z l − M). A row of the
  block is a row of the array, so block t of the result is block t of ONE function of the two whole arrays,
  `biasLogSoftmax`; the 20 blocks tile the result, and the array the region leaves is that function of the arrays it was
  entered with.
-/
import proofs.«169625_j37941741093230_2_alg».proof.Proof.Gen.KernelIdeal.Frame
import proofs.«169625_j37941741093230_2_alg».proof.Proof.DenseStages
import proofs.«169625_j37941741093230_2_alg».proof.Proof.LogSoftmaxRow
import Idealize.ShloMosaic.Lib.Pipeline.Value
import Idealize.ShloMosaic.Lib.ValueIdx

set_option maxRecDepth 16384

noncomputable section

namespace Cert.Gcn.LogSoftmaxRows

open Idealize.ShloMosaic Idealize.ShloMosaic.TcCoe Idealize.SL.Sem Idealize.ShloMosaic.ValueIdx
open Cert.KernelIdeal Cert.KernelIdeal.Gen Cert.Gcn

-- The buffer contents the region is entered with: a parameter, so that the statement serves at whatever the earlier
-- segments of the program have left.
variable (V : (c : Dev nD) → (b : Ref sig .tc) → Buf (Elt Ideal) ((c : Thread nD τ).loc b))

theorem zero_offsets : (![0, 0] : Fin 2 → Nat) = fun _ => 0 := funext fun a => by fin_cases a <;> rfl

theorem zero_offset : (![0] : Fin 1 → Nat) = fun _ => 0 := funext fun a => by fin_cases a; rfl

/-- The stored entry is the whole arrays' function at the array index `i`, once the block's row p is the message array's row
    `i 0`, the bias is the bias, and q is `i`'s column: the logarithmic softmax of a row at an entry depends on nothing else. -/
theorem entry_eq (A0 : FVec Ideal S100000x7 .f32) (A1 : FVec Ideal S7 .f32) (x0 : Vec Ideal S5000x7 .f32) (x1 : Vec Ideal S7 .f32)
    (p : Fin 5000) (q : Fin 7) (i : S100000x7.Idx) (h0 : ∀ l : Fin 7, x0 (ix2 p l) = A0 (ix2 (i 0) l))
    (h1 : ∀ l : Fin 7, x1 (ix1 l) = A1 (ix1 l)) (hq : q = i 1) :
    k5_pay1 (F := Ideal) x0 x1 (ix2 p q) = biasLogSoftmax A0 A1 i := by
  rw [LogSoftmaxRow.payload_apply]
  simp only [h0, h1]
  subst hq
  rfl

/-- The printed index maps over the grid: at point t the message window and the result window sit at block row t,
    block column 0; the bias window at its one block. -/
theorem index_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- What point t writes back is block t of `biasLogSoftmax` of the two arrays as the region finds them. -/
theorem flushed_eq (c : Dev nD) (t : Fin cfg5.N) :
    (dat5 V c).flushed 2 t = ((cfg5.win 2).blk t).view.read (Elt Ideal)
      (biasLogSoftmax (V c (Pipeline.arrRef spec5 0)) (V c (Pipeline.arrRef spec5 1))) := by
  show (cfg5.win 2).cut (grid5.coords t) ((dat5 V c).after 2 t) = _
  rw [after5_2]
  unfold out5_2
  rw [View.canon_unit_zero zero_offsets]
  simp only [View.ld_unit_zero (S := S5000x7) zero_offsets, View.ld_unit_zero (S := S7) zero_offset]
  obtain ⟨e0, e1, e2, e3, e4⟩ := index_facts t
  funext j
  obtain ⟨p, q, rfl⟩ : ∃ (p : Fin 5000) (q : Fin 7), j = ix2 p q := ⟨j 0, j 1, eq_ix2 j⟩
  refine entry_eq (V c (Pipeline.arrRef spec5 0)) (V c (Pipeline.arrRef spec5 1)) (iblk5 V c 0 t) (iblk5 V c 1 t) p q
    (((cfg5.win 2).blk t).view.emb (ix2 p q)) (fun l => ?_) (fun l => ?_) ?_
  · show V c (Pipeline.arrRef spec5 0) (((cfg5.win 0).blk t).view.emb (ix2 p l)) = V c (Pipeline.arrRef spec5 0) (ix2 ((((cfg5.win 2).blk t).view.emb (ix2 p q)) 0) l)
    refine congrArg _ (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 7 + 1 * l.val = l.val; omega
  · show V c (Pipeline.arrRef spec5 1) (((cfg5.win 1).blk t).view.emb (ix1 l)) = V c (Pipeline.arrRef spec5 1) (ix1 l)
    refine congrArg _ (funext fun a => Fin.ext ?_)
    match a with
    | ⟨0, _⟩ => show win5_1.index t (0 : Fin 1) * 7 + 1 * l.val = l.val; omega
  · apply Fin.ext
    show q.val = win5_2.index t (1 : Fin 2) * 7 + 1 * q.val; omega

/-- An index of the result array is in point t's block iff each coordinate is in the block's range on its axis. -/
theorem mem_block (t : Fin cfg5.N) (i : S100000x7.Idx) :
    i ∈ ((cfg5.win 2).blk t).view.set ↔ ∀ a : Fin 2, win5_2.index t a * S5000x7.size a ≤ (i a).val
      ∧ (i a).val < win5_2.index t a * S5000x7.size a + S5000x7.size a := by
  show i ∈ ((View.whole main_v56).slice (win5_2.rect t)).set ↔ _
  rw [View.set_slice_whole, Rect.mem_set_unit]
  exact Iff.rfl

/-- Every row r of the result lies in the block of point r / 5000: the blocks tile the array. -/
theorem covered (i : S100000x7.Idx) :
    ∃ t : Fin cfg5.N, (cfg5.win 2).flush t = true ∧ i ∈ ((cfg5.win 2).blk t).view.set := by
  have hi0 : (i 0).val < 100000 := (i 0).isLt
  have hi1 : (i 1).val < 7 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨e0, e1, e2, e3, e4⟩ := index_facts t
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 7 ≤ (i 1).val ∧ (i 1).val < win5_2.index t (1 : Fin 2) * 7 + 7; omega

/-- The array the region leaves: the logarithmic softmax of every biased row. -/
theorem array_eq (c : Dev nD) :
    (dat5 V c).arrAt 2 cfg5.N = biasLogSoftmax (V c (Pipeline.arrRef spec5 0)) (V c (Pipeline.arrRef spec5 1)) :=
  (dat5 V c).arrAt_eq_of_cover 2 _ (fun t _ => flushed_eq V c t) covered

end Cert.Gcn.LogSoftmaxRows

end
-- ==== Proof.FoldedValue.lean ====
/-
  The fold of the buffer contents through the program, read at the buffers that matter. At each of the thirteen boundaries
  between the program's segments, the live buffers hold named functions of the six launch arrays: the edges' sources,
  targets and coefficients from the first stretches on; after each region the array it leaves (by the region's own
  statement, at the contents the region was entered with); after each later stretch the gather or the per-node sum it
  computes. A buffer a segment does not write is carried across it unchanged. The last boundary's contents at the result
  buffer are `kernelValue` of the launch arrays.
-/
import proofs.«169625_j37941741093230_2_alg».proof.Proof.Gen.KernelIdeal.Frame
import proofs.«169625_j37941741093230_2_alg».proof.Proof.KernelValue
import proofs.«169625_j37941741093230_2_alg».proof.Proof.ProjectedRows16
import proofs.«169625_j37941741093230_2_alg».proof.Proof.ScaledRows16
import proofs.«169625_j37941741093230_2_alg».proof.Proof.BiasedRelu
import proofs.«169625_j37941741093230_2_alg».proof.Proof.ProjectedRows7
import proofs.«169625_j37941741093230_2_alg».proof.Proof.ScaledRows7
import proofs.«169625_j37941741093230_2_alg».proof.Proof.LogSoftmaxRows

set_option maxRecDepth 16384

noncomputable section

namespace Cert.Gcn.Folded

open Idealize.ShloMosaic Idealize.ShloMosaic.TcCoe Idealize.SL.Sem Idealize.ShloMosaic.StableHlo
open Cert.KernelIdeal Cert.KernelIdeal.Gen Cert.Gcn Cert.Gcn.HostStages

variable (m : (ℓ : Loc nD τ sig) → Buf (Elt Ideal) ℓ) (ρ : Dev nD → PrngReg) (c : Dev nD)

/-! ## What the first stretch computes from the edge list -/

theorem def_v5 : W1 m ρ c (Proc.devRef .tc main_v5) = sourcesOf (m ((c : Thread nD τ).loc main_arg1)) := first_sources (W0 m ρ c)
theorem def_v6 : W1 m ρ c (Proc.devRef .tc main_v6) = targetsOf (m ((c : Thread nD τ).loc main_arg1)) := first_targets (W0 m ρ c)
theorem at1_v12 : W1 m ρ c (Proc.devRef .tc main_v12) = positiveOf (degreeOf (targetsOf (m ((c : Thread nD τ).loc main_arg1)))) := first_positive (W0 m ρ c)
theorem at1_v13 : W1 m ρ c (Proc.devRef .tc main_v13) = Host.rsqrt (F := Ideal) (s := S100000) (φ := .f32) (degreeOf (targetsOf (m ((c : Thread nD τ).loc main_arg1)))) := first_rsqrt (W0 m ρ c)
theorem at1_cst2 : W1 m ρ c (Proc.devRef .tc main_cst_2) = constant (F := Ideal) S_ .f32 0x00000000#32 := first_zero (W0 m ρ c)

/-! ## The arguments, the sources, the targets, carried to where they are read -/

theorem at1_arg0 : W1 m ρ c (Proc.devRef .tc main_arg0) = m ((c : Thread nD τ).loc main_arg0) :=
  (by unwritten_by hostOps0 : W1 m ρ c (Proc.devRef .tc main_arg0) = W0 m ρ c (Proc.devRef .tc main_arg0)).trans rfl
theorem at2_arg0 : W2 m ρ c (Proc.devRef .tc main_arg0) = m ((c : Thread nD τ).loc main_arg0) :=
  (by unwritten_by hostOps0_1 : W2 m ρ c (Proc.devRef .tc main_arg0) = W1 m ρ c (Proc.devRef .tc main_arg0)).trans (at1_arg0 m ρ c)
theorem at3_arg0 : W3 m ρ c (Proc.devRef .tc main_arg0) = m ((c : Thread nD τ).loc main_arg0) :=
  (by unwritten_by hostOps0_2 : W3 m ρ c (Proc.devRef .tc main_arg0) = W2 m ρ c (Proc.devRef .tc main_arg0)).trans (at2_arg0 m ρ c)

theorem at1_arg2 : W1 m ρ c (Proc.devRef .tc main_arg2) = m ((c : Thread nD τ).loc main_arg2) :=
  (by unwritten_by hostOps0 : W1 m ρ c (Proc.devRef .tc main_arg2) = W0 m ρ c (Proc.devRef .tc main_arg2)).trans rfl
theorem at2_arg2 : W2 m ρ c (Proc.devRef .tc main_arg2) = m ((c : Thread nD τ).loc main_arg2) :=
  (by unwritten_by hostOps0_1 : W2 m ρ c (Proc.devRef .tc main_arg2) = W1 m ρ c (Proc.devRef .tc main_arg2)).trans (at1_arg2 m ρ c)
theorem at3_arg2 : W3 m ρ c (Proc.devRef .tc main_arg2) = m ((c : Thread nD τ).loc main_arg2) :=
  (by unwritten_by hostOps0_2 : W3 m ρ c (Proc.devRef .tc main_arg2) = W2 m ρ c (Proc.devRef .tc main_arg2)).trans (at2_arg2 m ρ c)

theorem at1_arg3 : W1 m ρ c (Proc.devRef .tc main_arg3) = m ((c : Thread nD τ).loc main_arg3) :=
  (by unwritten_by hostOps0 : W1 m ρ c (Proc.devRef .tc main_arg3) = W0 m ρ c (Proc.devRef .tc main_arg3)).trans rfl
theorem at2_arg3 : W2 m ρ c (Proc.devRef .tc main_arg3) = m ((c : Thread nD τ).loc main_arg3) :=
  (by unwritten_by hostOps0_1 : W2 m ρ c (Proc.devRef .tc main_arg3) = W1 m ρ c (Proc.devRef .tc main_arg3)).trans (at1_arg3 m ρ c)
theorem at3_arg3 : W3 m ρ c (Proc.devRef .tc main_arg3) = m ((c : Thread nD τ).loc main_arg3) :=
  (by unwritten_by hostOps0_2 : W3 m ρ c (Proc.devRef .tc main_arg3) = W2 m ρ c (Proc.devRef .tc main_arg3)).trans (at2_arg3 m ρ c)
theorem at4_arg3 : W4 m ρ c (Proc.devRef .tc main_arg3) = m ((c : Thread nD τ).loc main_arg3) :=
  (W4_of_ne m ρ c main_arg3 (by decide)).trans (at3_arg3 m ρ c)
theorem at5_arg3 : W5 m ρ c (Proc.devRef .tc main_arg3) = m ((c : Thread nD τ).loc main_arg3) :=
  (by unwritten_by hostOps1 : W5 m ρ c (Proc.devRef .tc main_arg3) = W4 m ρ c (Proc.devRef .tc main_arg3)).trans (at4_arg3 m ρ c)
theorem at6_arg3 : W6 m ρ c (Proc.devRef .tc main_arg3) = m ((c : Thread nD τ).loc main_arg3) :=
  (W6_of_ne m ρ c main_arg3 (by decide)).trans (at5_arg3 m ρ c)
theorem at7_arg3 : W7 m ρ c (Proc.devRef .tc main_arg3) = m ((c : Thread nD τ).loc main_arg3) :=
  (by unwritten_by hostOps2 : W7 m ρ c (Proc.devRef .tc main_arg3) = W6 m ρ c (Proc.devRef .tc main_arg3)).trans (at6_arg3 m ρ c)

theorem at1_arg4 : W1 m ρ c (Proc.devRef .tc main_arg4) = m ((c : Thread nD τ).loc main_arg4) :=
  (by unwritten_by hostOps0 : W1 m ρ c (Proc.devRef .tc main_arg4) = W0 m ρ c (Proc.devRef .tc main_arg4)).trans rfl
theorem at2_arg4 : W2 m ρ c (Proc.devRef .tc main_arg4) = m ((c : Thread nD τ).loc main_arg4) :=
  (by unwritten_by hostOps0_1 : W2 m ρ c (Proc.devRef .tc main_arg4) = W1 m ρ c (Proc.devRef .tc main_arg4)).trans (at1_arg4 m ρ c)
theorem at3_arg4 : W3 m ρ c (Proc.devRef .tc main_arg4) = m ((c : Thread nD τ).loc main_arg4) :=
  (by unwritten_by hostOps0_2 : W3 m ρ c (Proc.devRef .tc main_arg4) = W2 m ρ c (Proc.devRef .tc main_arg4)).trans (at2_arg4 m ρ c)
theorem at4_arg4 : W4 m ρ c (Proc.devRef .tc main_arg4) = m ((c : Thread nD τ).loc main_arg4) :=
  (W4_of_ne m ρ c main_arg4 (by decide)).trans (at3_arg4 m ρ c)
theorem at5_arg4 : W5 m ρ c (Proc.devRef .tc main_arg4) = m ((c : Thread nD τ).loc main_arg4) :=
  (by unwritten_by hostOps1 : W5 m ρ c (Proc.devRef .tc main_arg4) = W4 m ρ c (Proc.devRef .tc main_arg4)).trans (at4_arg4 m ρ c)
theorem at6_arg4 : W6 m ρ c (Proc.devRef .tc main_arg4) = m ((c : Thread nD τ).loc main_arg4) :=
  (W6_of_ne m ρ c main_arg4 (by decide)).trans (at5_arg4 m ρ c)
theorem at7_arg4 : W7 m ρ c (Proc.devRef .tc main_arg4) = m ((c : Thread nD τ).loc main_arg4) :=
  (by unwritten_by hostOps2 : W7 m ρ c (Proc.devRef .tc main_arg4) = W6 m ρ c (Proc.devRef .tc main_arg4)).trans (at6_arg4 m ρ c)
theorem at8_arg4 : W8 m ρ c (Proc.devRef .tc main_arg4) = m ((c : Thread nD τ).loc main_arg4) :=
  (W8_of_ne m ρ c main_arg4 (by decide)).trans (at7_arg4 m ρ c)

theorem at1_arg5 : W1 m ρ c (Proc.devRef .tc main_arg5) = m ((c : Thread nD τ).loc main_arg5) :=
  (by unwritten_by hostOps0 : W1 m ρ c (Proc.devRef .tc main_arg5) = W0 m ρ c (Proc.devRef .tc main_arg5)).trans rfl
theorem at2_arg5 : W2 m ρ c (Proc.devRef .tc main_arg5) = m ((c : Thread nD τ).loc main_arg5) :=
  (by unwritten_by hostOps0_1 : W2 m ρ c (Proc.devRef .tc main_arg5) = W1 m ρ c (Proc.devRef .tc main_arg5)).trans (at1_arg5 m ρ c)
theorem at3_arg5 : W3 m ρ c (Proc.devRef .tc main_arg5) = m ((c : Thread nD τ).loc main_arg5) :=
  (by unwritten_by hostOps0_2 : W3 m ρ c (Proc.devRef .tc main_arg5) = W2 m ρ c (Proc.devRef .tc main_arg5)).trans (at2_arg5 m ρ c)
theorem at4_arg5 : W4 m ρ c (Proc.devRef .tc main_arg5) = m ((c : Thread nD τ).loc main_arg5) :=
  (W4_of_ne m ρ c main_arg5 (by decide)).trans (at3_arg5 m ρ c)
theorem at5_arg5 : W5 m ρ c (Proc.devRef .tc main_arg5) = m ((c : Thread nD τ).loc main_arg5) :=
  (by unwritten_by hostOps1 : W5 m ρ c (Proc.devRef .tc main_arg5) = W4 m ρ c (Proc.devRef .tc main_arg5)).trans (at4_arg5 m ρ c)
theorem at6_arg5 : W6 m ρ c (Proc.devRef .tc main_arg5) = m ((c : Thread nD τ).loc main_arg5) :=
  (W6_of_ne m ρ c main_arg5 (by decide)).trans (at5_arg5 m ρ c)
theorem at7_arg5 : W7 m ρ c (Proc.devRef .tc main_arg5) = m ((c : Thread nD τ).loc main_arg5) :=
  (by unwritten_by hostOps2 : W7 m ρ c (Proc.devRef .tc main_arg5) = W6 m ρ c (Proc.devRef .tc main_arg5)).trans (at6_arg5 m ρ c)
theorem at8_arg5 : W8 m ρ c (Proc.devRef .tc main_arg5) = m ((c : Thread nD τ).loc main_arg5) :=
  (W8_of_ne m ρ c main_arg5 (by decide)).trans (at7_arg5 m ρ c)
theorem at9_arg5 : W9 m ρ c (Proc.devRef .tc main_arg5) = m ((c : Thread nD τ).loc main_arg5) :=
  (W9_of_ne m ρ c main_arg5 (by decide)).trans (at8_arg5 m ρ c)
theorem at10_arg5 : W10 m ρ c (Proc.devRef .tc main_arg5) = m ((c : Thread nD τ).loc main_arg5) :=
  (by unwritten_by hostOps4 : W10 m ρ c (Proc.devRef .tc main_arg5) = W9 m ρ c (Proc.devRef .tc main_arg5)).trans (at9_arg5 m ρ c)
theorem at11_arg5 : W11 m ρ c (Proc.devRef .tc main_arg5) = m ((c : Thread nD τ).loc main_arg5) :=
  (W11_of_ne m ρ c main_arg5 (by decide)).trans (at10_arg5 m ρ c)
theorem at12_arg5 : W12 m ρ c (Proc.devRef .tc main_arg5) = m ((c : Thread nD τ).loc main_arg5) :=
  (by unwritten_by hostOps5 : W12 m ρ c (Proc.devRef .tc main_arg5) = W11 m ρ c (Proc.devRef .tc main_arg5)).trans (at11_arg5 m ρ c)

theorem at2_v5 : W2 m ρ c (Proc.devRef .tc main_v5) = sourcesOf (m ((c : Thread nD τ).loc main_arg1)) :=
  (by unwritten_by hostOps0_1 : W2 m ρ c (Proc.devRef .tc main_v5) = W1 m ρ c (Proc.devRef .tc main_v5)).trans (def_v5 m ρ c)
theorem at3_v5 : W3 m ρ c (Proc.devRef .tc main_v5) = sourcesOf (m ((c : Thread nD τ).loc main_arg1)) :=
  (by unwritten_by hostOps0_2 : W3 m ρ c (Proc.devRef .tc main_v5) = W2 m ρ c (Proc.devRef .tc main_v5)).trans (at2_v5 m ρ c)
theorem at4_v5 : W4 m ρ c (Proc.devRef .tc main_v5) = sourcesOf (m ((c : Thread nD τ).loc main_arg1)) :=
  (W4_of_ne m ρ c main_v5 (by decide)).trans (at3_v5 m ρ c)
theorem at5_v5 : W5 m ρ c (Proc.devRef .tc main_v5) = sourcesOf (m ((c : Thread nD τ).loc main_arg1)) :=
  (by unwritten_by hostOps1 : W5 m ρ c (Proc.devRef .tc main_v5) = W4 m ρ c (Proc.devRef .tc main_v5)).trans (at4_v5 m ρ c)
theorem at6_v5 : W6 m ρ c (Proc.devRef .tc main_v5) = sourcesOf (m ((c : Thread nD τ).loc main_arg1)) :=
  (W6_of_ne m ρ c main_v5 (by decide)).trans (at5_v5 m ρ c)
theorem at7_v5 : W7 m ρ c (Proc.devRef .tc main_v5) = sourcesOf (m ((c : Thread nD τ).loc main_arg1)) :=
  (by unwritten_by hostOps2 : W7 m ρ c (Proc.devRef .tc main_v5) = W6 m ρ c (Proc.devRef .tc main_v5)).trans (at6_v5 m ρ c)
theorem at8_v5 : W8 m ρ c (Proc.devRef .tc main_v5) = sourcesOf (m ((c : Thread nD τ).loc main_arg1)) :=
  (W8_of_ne m ρ c main_v5 (by decide)).trans (at7_v5 m ρ c)
theorem at9_v5 : W9 m ρ c (Proc.devRef .tc main_v5) = sourcesOf (m ((c : Thread nD τ).loc main_arg1)) :=
  (W9_of_ne m ρ c main_v5 (by decide)).trans (at8_v5 m ρ c)

theorem at2_v6 : W2 m ρ c (Proc.devRef .tc main_v6) = targetsOf (m ((c : Thread nD τ).loc main_arg1)) :=
  (by unwritten_by hostOps0_1 : W2 m ρ c (Proc.devRef .tc main_v6) = W1 m ρ c (Proc.devRef .tc main_v6)).trans (def_v6 m ρ c)
theorem at3_v6 : W3 m ρ c (Proc.devRef .tc main_v6) = targetsOf (m ((c : Thread nD τ).loc main_arg1)) :=
  (by unwritten_by hostOps0_2 : W3 m ρ c (Proc.devRef .tc main_v6) = W2 m ρ c (Proc.devRef .tc main_v6)).trans (at2_v6 m ρ c)
theorem at4_v6 : W4 m ρ c (Proc.devRef .tc main_v6) = targetsOf (m ((c : Thread nD τ).loc main_arg1)) :=
  (W4_of_ne m ρ c main_v6 (by decide)).trans (at3_v6 m ρ c)
theorem at5_v6 : W5 m ρ c (Proc.devRef .tc main_v6) = targetsOf (m ((c : Thread nD τ).loc main_arg1)) :=
  (by unwritten_by hostOps1 : W5 m ρ c (Proc.devRef .tc main_v6) = W4 m ρ c (Proc.devRef .tc main_v6)).trans (at4_v6 m ρ c)
theorem at6_v6 : W6 m ρ c (Proc.devRef .tc main_v6) = targetsOf (m ((c : Thread nD τ).loc main_arg1)) :=
  (W6_of_ne m ρ c main_v6 (by decide)).trans (at5_v6 m ρ c)
theorem at7_v6 : W7 m ρ c (Proc.devRef .tc main_v6) = targetsOf (m ((c : Thread nD τ).loc main_arg1)) :=
  (by unwritten_by hostOps2 : W7 m ρ c (Proc.devRef .tc main_v6) = W6 m ρ c (Proc.devRef .tc main_v6)).trans (at6_v6 m ρ c)
theorem at8_v6 : W8 m ρ c (Proc.devRef .tc main_v6) = targetsOf (m ((c : Thread nD τ).loc main_arg1)) :=
  (W8_of_ne m ρ c main_v6 (by decide)).trans (at7_v6 m ρ c)
theorem at9_v6 : W9 m ρ c (Proc.devRef .tc main_v6) = targetsOf (m ((c : Thread nD τ).loc main_arg1)) :=
  (W9_of_ne m ρ c main_v6 (by decide)).trans (at8_v6 m ρ c)
theorem at10_v6 : W10 m ρ c (Proc.devRef .tc main_v6) = targetsOf (m ((c : Thread nD τ).loc main_arg1)) :=
  (by unwritten_by hostOps4 : W10 m ρ c (Proc.devRef .tc main_v6) = W9 m ρ c (Proc.devRef .tc main_v6)).trans (at9_v6 m ρ c)
theorem at11_v6 : W11 m ρ c (Proc.devRef .tc main_v6) = targetsOf (m ((c : Thread nD τ).loc main_arg1)) :=
  (W11_of_ne m ρ c main_v6 (by decide)).trans (at10_v6 m ρ c)

/-! ## The nodes' scales and the edges' coefficients -/

theorem at2_v14 : W2 m ρ c (Proc.devRef .tc main_v14)
    = scaleOf (positiveOf (degreeOf (targetsOf (m ((c : Thread nD τ).loc main_arg1))))) (Host.rsqrt (F := Ideal) (s := S100000) (φ := .f32) (degreeOf (targetsOf (m ((c : Thread nD τ).loc main_arg1))))) (constant (F := Ideal) S_ .f32 0x00000000#32) :=
  (where_scale (W1 m ρ c)).trans (by rw [at1_v12, at1_v13, at1_cst2])

theorem def_v30 : W3 m ρ c (Proc.devRef .tc main_v30) = coefficients (m ((c : Thread nD τ).loc main_arg1)) :=
  (norm_coefficient (W2 m ρ c)).trans (by rw [at2_v14, at2_v5, at2_v6]; rfl)

theorem at4_v30 : W4 m ρ c (Proc.devRef .tc main_v30) = coefficients (m ((c : Thread nD τ).loc main_arg1)) :=
  (W4_of_ne m ρ c main_v30 (by decide)).trans (def_v30 m ρ c)
theorem at5_v30 : W5 m ρ c (Proc.devRef .tc main_v30) = coefficients (m ((c : Thread nD τ).loc main_arg1)) :=
  (by unwritten_by hostOps1 : W5 m ρ c (Proc.devRef .tc main_v30) = W4 m ρ c (Proc.devRef .tc main_v30)).trans (at4_v30 m ρ c)
theorem at6_v30 : W6 m ρ c (Proc.devRef .tc main_v30) = coefficients (m ((c : Thread nD τ).loc main_arg1)) :=
  ((W6_arr m ρ c 1).trans (((dat1 (V5 m ρ) c).arrAt_in 1 rfl _).trans (A_eq1 (V5 m ρ) c 1))).trans (at5_v30 m ρ c)
theorem at7_v30 : W7 m ρ c (Proc.devRef .tc main_v30) = coefficients (m ((c : Thread nD τ).loc main_arg1)) :=
  (by unwritten_by hostOps2 : W7 m ρ c (Proc.devRef .tc main_v30) = W6 m ρ c (Proc.devRef .tc main_v30)).trans (at6_v30 m ρ c)
theorem at8_v30 : W8 m ρ c (Proc.devRef .tc main_v30) = coefficients (m ((c : Thread nD τ).loc main_arg1)) :=
  (W8_of_ne m ρ c main_v30 (by decide)).trans (at7_v30 m ρ c)
theorem at9_v30 : W9 m ρ c (Proc.devRef .tc main_v30) = coefficients (m ((c : Thread nD τ).loc main_arg1)) :=
  (W9_of_ne m ρ c main_v30 (by decide)).trans (at8_v30 m ρ c)
theorem at10_v30 : W10 m ρ c (Proc.devRef .tc main_v30) = coefficients (m ((c : Thread nD τ).loc main_arg1)) :=
  (by unwritten_by hostOps4 : W10 m ρ c (Proc.devRef .tc main_v30) = W9 m ρ c (Proc.devRef .tc main_v30)).trans (at9_v30 m ρ c)

/-! ## The first layer -/

theorem at4_v31 : W4 m ρ c (Proc.devRef .tc main_v31) = project16 (m ((c : Thread nD τ).loc main_arg0)) (m ((c : Thread nD τ).loc main_arg2)) :=
  (W4_arr m ρ c 2).trans ((ProjectedRows16.array_eq (V3 m ρ) c).trans (congrArg₂ project16 (at3_arg0 m ρ c) (at3_arg2 m ρ c)))

theorem at5_v38 : W5 m ρ c (Proc.devRef .tc main_v38) = gather16 (project16 (m ((c : Thread nD τ).loc main_arg0)) (m ((c : Thread nD τ).loc main_arg2))) (sourcesOf (m ((c : Thread nD τ).loc main_arg1))) :=
  (gathered16 (W4 m ρ c)).trans (congrArg₂ gather16 (at4_v31 m ρ c) (at4_v5 m ρ c))

theorem at6_v39 : W6 m ρ c (Proc.devRef .tc main_v39)
    = scale16 (gather16 (project16 (m ((c : Thread nD τ).loc main_arg0)) (m ((c : Thread nD τ).loc main_arg2))) (sourcesOf (m ((c : Thread nD τ).loc main_arg1)))) (coefficients (m ((c : Thread nD τ).loc main_arg1))) :=
  (W6_arr m ρ c 2).trans ((ScaledRows16.array_eq (V5 m ρ) c).trans (congrArg₂ scale16 (at5_v38 m ρ c) (at5_v30 m ρ c)))

theorem at7_v42 : W7 m ρ c (Proc.devRef .tc main_v42)
    = sumAtTargets16 (scale16 (gather16 (project16 (m ((c : Thread nD τ).loc main_arg0)) (m ((c : Thread nD τ).loc main_arg2))) (sourcesOf (m ((c : Thread nD τ).loc main_arg1)))) (coefficients (m ((c : Thread nD τ).loc main_arg1)))) (targetsOf (m ((c : Thread nD τ).loc main_arg1))) :=
  (summed16 (W6 m ρ c)).trans (congrArg₂ sumAtTargets16 (at6_v39 m ρ c) (at6_v6 m ρ c))

theorem at8_v43 : W8 m ρ c (Proc.devRef .tc main_v43) = hidden (m ((c : Thread nD τ).loc main_arg0)) (m ((c : Thread nD τ).loc main_arg1)) (m ((c : Thread nD τ).loc main_arg2)) (m ((c : Thread nD τ).loc main_arg3)) :=
  (W8_arr m ρ c 2).trans ((BiasedRelu.array_eq (V7 m ρ) c).trans (congrArg₂ biasRelu (at7_v42 m ρ c) (at7_arg3 m ρ c)))

/-! ## The second layer -/

theorem at9_v44 : W9 m ρ c (Proc.devRef .tc main_v44) = project7 (hidden (m ((c : Thread nD τ).loc main_arg0)) (m ((c : Thread nD τ).loc main_arg1)) (m ((c : Thread nD τ).loc main_arg2)) (m ((c : Thread nD τ).loc main_arg3))) (m ((c : Thread nD τ).loc main_arg4)) :=
  (W9_arr m ρ c 2).trans ((ProjectedRows7.array_eq (V8 m ρ) c).trans (congrArg₂ project7 (at8_v43 m ρ c) (at8_arg4 m ρ c)))

theorem at10_v51 : W10 m ρ c (Proc.devRef .tc main_v51)
    = gather7 (project7 (hidden (m ((c : Thread nD τ).loc main_arg0)) (m ((c : Thread nD τ).loc main_arg1)) (m ((c : Thread nD τ).loc main_arg2)) (m ((c : Thread nD τ).loc main_arg3))) (m ((c : Thread nD τ).loc main_arg4))) (sourcesOf (m ((c : Thread nD τ).loc main_arg1))) :=
  (gathered7 (W9 m ρ c)).trans (congrArg₂ gather7 (at9_v44 m ρ c) (at9_v5 m ρ c))

theorem at11_v52 : W11 m ρ c (Proc.devRef .tc main_v52)
    = scale7 (gather7 (project7 (hidden (m ((c : Thread nD τ).loc main_arg0)) (m ((c : Thread nD τ).loc main_arg1)) (m ((c : Thread nD τ).loc main_arg2)) (m ((c : Thread nD τ).loc main_arg3))) (m ((c : Thread nD τ).loc main_arg4))) (sourcesOf (m ((c : Thread nD τ).loc main_arg1)))) (coefficients (m ((c : Thread nD τ).loc main_arg1))) :=
  (W11_arr m ρ c 2).trans ((ScaledRows7.array_eq (V10 m ρ) c).trans (congrArg₂ scale7 (at10_v51 m ρ c) (at10_v30 m ρ c)))

theorem at12_v55 : W12 m ρ c (Proc.devRef .tc main_v55)
    = sumAtTargets7 (scale7 (gather7 (project7 (hidden (m ((c : Thread nD τ).loc main_arg0)) (m ((c : Thread nD τ).loc main_arg1)) (m ((c : Thread nD τ).loc main_arg2)) (m ((c : Thread nD τ).loc main_arg3))) (m ((c : Thread nD τ).loc main_arg4))) (sourcesOf (m ((c : Thread nD τ).loc main_arg1)))) (coefficients (m ((c : Thread nD τ).loc main_arg1)))) (targetsOf (m ((c : Thread nD τ).loc main_arg1))) :=
  (summed7 (W11 m ρ c)).trans (congrArg₂ sumAtTargets7 (at11_v52 m ρ c) (at11_v6 m ρ c))

/-- The last boundary's contents at the result buffer: the whole computation of the launch arrays. -/
theorem result_eq : W13 m ρ c (Proc.devRef .tc main_v56) = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W13_arr m ρ c 2).trans ((LogSoftmaxRows.array_eq (V12 m ρ) c).trans (congrArg₂ biasLogSoftmax (at12_v55 m ρ c) (at12_arg5 m ρ c)))

end Cert.Gcn.Folded

end
-- ==== Proof.ProjectHost.lean ====
/-
  The reference's two matrix products are the dense stages' products. Each is a contraction of the left operand's
  axis 1 with the right operand's axis 0, so entry (n, f) is the sum over k of the left operand at (n, k) times the
  right operand at (k, f); the contraction's index set has one axis and is re-indexed by its one coordinate k, and
  the operand indices it composes are these pairs, coordinate by coordinate. Both products are stated for arbitrary
  operands.
-/
import proofs.«169625_j37941741093230_2_alg».proof.Proof.Gen.ReferenceIdeal
import proofs.«169625_j37941741093230_2_alg».proof.Proof.DenseStages
import Idealize.ShloMosaic.Lib.ValueIdx
import Idealize.ShloMosaic.PureOps.Ideal.Laws

open Idealize.ShloMosaic Idealize.ShloMosaic.ValueIdx Cert.ReferenceIdeal Cert.Gcn

noncomputable section

namespace Cert.Gcn.ProjectHost

/-- The dimension numbers of the first product: [100000, 512] × [512, 16], contracting axis 1 with axis 0. -/
abbrev dims16 : DotDims S100000x512 S512x16 S100000x16 := dot_S100000x512_S512x16_S100000x16_1_0_0_1_n_n

/-- The left operand's row coordinate is the output's row coordinate. -/
theorem lhs16_row (i : S100000x16.Idx) (c : dims16.contr.Idx) : (dims16.lhsIdx i c 0).val = (i 0).val := by
  unfold DotDims.lhsIdx
  rw [dif_neg (show ¬(0 : Fin S100000x512.rank) ∈ dims16.lhsBatch by decide),
    dif_pos (show (0 : Fin S100000x512.rank) ∈ dims16.lhsNonContracting by decide)]
  rfl

/-- The left operand's column coordinate is the contraction coordinate. -/
theorem lhs16_col (i : S100000x16.Idx) (c : dims16.contr.Idx) : (dims16.lhsIdx i c 1).val = (c ⟨0, by decide⟩).val :=
  dims16.lhsIdx_val_of_single rfl i c

/-- The right operand's row coordinate is the contraction coordinate. -/
theorem rhs16_row (i : S100000x16.Idx) (c : dims16.contr.Idx) : (dims16.rhsIdx i c 0).val = (c ⟨0, by decide⟩).val :=
  dims16.rhsIdx_val_of_single rfl i c

/-- The right operand's column coordinate is the output's column coordinate. -/
theorem rhs16_col (i : S100000x16.Idx) (c : dims16.contr.Idx) : (dims16.rhsIdx i c 1).val = (i 1).val := by
  unfold DotDims.rhsIdx
  rw [dif_neg (show ¬(1 : Fin S512x16.rank) ∈ dims16.rhsBatch by decide),
    dif_pos (show (1 : Fin S512x16.rank) ∈ dims16.rhsNonContracting by decide)]
  rfl

/-- Any 100000 × 512 array times any 512 × 16 array, as the reference's first contraction computes it, is the first
    dense product of the two. -/
theorem host_project16_of (x : (⟨S100000x512, .f32⟩ : BufTy).Contents (Elt Ideal))
    (w : (⟨S512x16, .f32⟩ : BufTy).Contents (Elt Ideal)) :
    Host.dotGeneral (F := Ideal) (φ₁ := .f32) (φ₂ := .f32) dot_S100000x512_S512x16_S100000x16_1_0_0_1_n_n none x w
      = Cert.Gcn.project16 x w := by
  funext i
  simp only [Host.dotGeneral]
  rw [Ideal.dotGeneral_apply, ← Equiv.sum_comp (contrEquiv1 dims16 512 rfl rfl).symm]
  unfold Cert.Gcn.project16
  refine Finset.sum_congr rfl fun k _ => ?_
  have hk := contrEquiv1_symm_val dims16 512 rfl rfl k
  have el : dims16.lhsIdx i ((contrEquiv1 dims16 512 rfl rfl).symm k) = ix2 (i 0) k :=
    funext fun a => Fin.ext (by
      match a with
      | ⟨0, _⟩ => exact lhs16_row _ _
      | ⟨1, _⟩ => exact (lhs16_col _ _).trans hk)
  have er : dims16.rhsIdx i ((contrEquiv1 dims16 512 rfl rfl).symm k) = ix2 k (i 1) :=
    funext fun a => Fin.ext (by
      match a with
      | ⟨0, _⟩ => exact (rhs16_row _ _).trans hk
      | ⟨1, _⟩ => exact rhs16_col _ _)
  exact congrArg₂ (· * ·) (congrArg x el) (congrArg w er)

/-- The dimension numbers of the second product: [100000, 16] × [16, 7], contracting axis 1 with axis 0. -/
abbrev dims7 : DotDims S100000x16 S16x7 S100000x7 := dot_S100000x16_S16x7_S100000x7_1_0_0_1_n_n

/-- The left operand's row coordinate is the output's row coordinate. -/
theorem lhs7_row (i : S100000x7.Idx) (c : dims7.contr.Idx) : (dims7.lhsIdx i c 0).val = (i 0).val := by
  unfold DotDims.lhsIdx
  rw [dif_neg (show ¬(0 : Fin S100000x16.rank) ∈ dims7.lhsBatch by decide),
    dif_pos (show (0 : Fin S100000x16.rank) ∈ dims7.lhsNonContracting by decide)]
  rfl

/-- The left operand's column coordinate is the contraction coordinate. -/
theorem lhs7_col (i : S100000x7.Idx) (c : dims7.contr.Idx) : (dims7.lhsIdx i c 1).val = (c ⟨0, by decide⟩).val :=
  dims7.lhsIdx_val_of_single rfl i c

/-- The right operand's row coordinate is the contraction coordinate. -/
theorem rhs7_row (i : S100000x7.Idx) (c : dims7.contr.Idx) : (dims7.rhsIdx i c 0).val = (c ⟨0, by decide⟩).val :=
  dims7.rhsIdx_val_of_single rfl i c

/-- The right operand's column coordinate is the output's column coordinate. -/
theorem rhs7_col (i : S100000x7.Idx) (c : dims7.contr.Idx) : (dims7.rhsIdx i c 1).val = (i 1).val := by
  unfold DotDims.rhsIdx
  rw [dif_neg (show ¬(1 : Fin S16x7.rank) ∈ dims7.rhsBatch by decide),
    dif_pos (show (1 : Fin S16x7.rank) ∈ dims7.rhsNonContracting by decide)]
  rfl

/-- Any 100000 × 16 array times any 16 × 7 array, as the reference's second contraction computes it, is the second
    dense product of the two. -/
theorem host_project7_of (h : (⟨S100000x16, .f32⟩ : BufTy).Contents (Elt Ideal))
    (w : (⟨S16x7, .f32⟩ : BufTy).Contents (Elt Ideal)) :
    Host.dotGeneral (F := Ideal) (φ₁ := .f32) (φ₂ := .f32) dot_S100000x16_S16x7_S100000x7_1_0_0_1_n_n none h w
      = Cert.Gcn.project7 h w := by
  funext i
  simp only [Host.dotGeneral]
  rw [Ideal.dotGeneral_apply, ← Equiv.sum_comp (contrEquiv1 dims7 16 rfl rfl).symm]
  unfold Cert.Gcn.project7
  refine Finset.sum_congr rfl fun k _ => ?_
  have hk := contrEquiv1_symm_val dims7 16 rfl rfl k
  have el : dims7.lhsIdx i ((contrEquiv1 dims7 16 rfl rfl).symm k) = ix2 (i 0) k :=
    funext fun a => Fin.ext (by
      match a with
      | ⟨0, _⟩ => exact lhs7_row _ _
      | ⟨1, _⟩ => exact (lhs7_col _ _).trans hk)
  have er : dims7.rhsIdx i ((contrEquiv1 dims7 16 rfl rfl).symm k) = ix2 k (i 1) :=
    funext fun a => Fin.ext (by
      match a with
      | ⟨0, _⟩ => exact (rhs7_row _ _).trans hk
      | ⟨1, _⟩ => exact rhs7_col _ _)
  exact congrArg₂ (· * ·) (congrArg h el) (congrArg w er)

end Cert.Gcn.ProjectHost

end
-- ==== Proof.LogSoftmaxHost.lean ====
/-
  The logarithmic softmax of a biased row, as the reference takes it over a whole 100000 × 7 array `y` with a bias `b`:
  the bias, laid out as one row and spread over the rows, is added; each row's largest entry, folded from −∞ and once
  more compared with −∞ (which changes nothing), is taken off; then the logarithm of the row's sum of exponentials is
  taken off. The stages are written one host operation at a time, and entry by entry their composition is the stage
  `biasLogSoftmax` of `y` and `b`.
-/
import proofs.«169625_j37941741093230_2_alg».proof.Proof.Gen.ReferenceIdeal
import proofs.«169625_j37941741093230_2_alg».proof.Proof.DenseStages
import Idealize.ShloMosaic.Lib.Pipeline.Value
import Idealize.ShloMosaic.Lib.ValueIdx
import Idealize.ShloMosaic.PureOps.Ideal.Laws
import Idealize.ShloMosaic.PureOps.Reduce

noncomputable section

namespace Cert.Gcn.LogSoftmaxHost

open Idealize.ShloMosaic Idealize.ShloMosaic.ValueIdx Cert.ReferenceIdeal Cert.ReferenceIdeal.Gen Cert.Gcn

/-! ## The stages, one host operation each -/

/-- The bias laid out as one row. -/
def biasAsRow (b : (⟨S7, .f32⟩ : BufTy).Contents (Elt Ideal)) : (⟨S1x7, .f32⟩ : BufTy).Contents (Elt Ideal) :=
  broadcastInDim S1x7 ![1] bcast_S7_S1x7_1 b

/-- The bias row spread over the 100000 rows. -/
def biasRows (b : (⟨S7, .f32⟩ : BufTy).Contents (Elt Ideal)) : (⟨S100000x7, .f32⟩ : BufTy).Contents (Elt Ideal) :=
  broadcastInDim S100000x7 ![0, 1] bcast_S1x7_S100000x7_0_1 (biasAsRow b)

/-- The array with the bias added. -/
def biased (y : (⟨S100000x7, .f32⟩ : BufTy).Contents (Elt Ideal)) (b : (⟨S7, .f32⟩ : BufTy).Contents (Elt Ideal)) : (⟨S100000x7, .f32⟩ : BufTy).Contents (Elt Ideal) :=
  addf (F := Ideal) (φ := .f32) y (biasRows b)

/-- The word of −∞ the maximum is folded from. -/
def negInfInit : (⟨S_, .f32⟩ : BufTy).Contents (Elt Ideal) :=
  constant (F := Ideal) S_ .f32 0xFF800000#32

/-- The maximum over the lanes, folded from −∞. -/
def laneMax (y : (⟨S100000x7, .f32⟩ : BufTy).Contents (Elt Ideal)) (b : (⟨S7, .f32⟩ : BufTy).Contents (Elt Ideal)) : (⟨S100000, .f32⟩ : BufTy).Contents (Elt Ideal) :=
  Host.reduce (FloatOps.maximumf (F := Ideal) (φ := .f32)) (biased y b) negInfInit reducesTo_S100000x7_S100000_d1 h_S_

/-- The word of −∞ the maximum is compared with once more. -/
def negInfAgain : (⟨S_, .f32⟩ : BufTy).Contents (Elt Ideal) :=
  constant (F := Ideal) S_ .f32 0xFF800000#32

/-- That word at every row. -/
def negInfs : (⟨S100000, .f32⟩ : BufTy).Contents (Elt Ideal) :=
  broadcastInDim S100000 ![] bcast_S_S100000 negInfAgain

/-- Each row's largest entry: the larger of −∞ and the folded maximum. -/
def rowLargest (y : (⟨S100000x7, .f32⟩ : BufTy).Contents (Elt Ideal)) (b : (⟨S7, .f32⟩ : BufTy).Contents (Elt Ideal)) : (⟨S100000, .f32⟩ : BufTy).Contents (Elt Ideal) :=
  maximumf (F := Ideal) (φ := .f32) negInfs (laneMax y b)

/-- The largest entries kept as a column. -/
def largestColumn (y : (⟨S100000x7, .f32⟩ : BufTy).Contents (Elt Ideal)) (b : (⟨S7, .f32⟩ : BufTy).Contents (Elt Ideal)) : (⟨S100000x1, .f32⟩ : BufTy).Contents (Elt Ideal) :=
  broadcastInDim S100000x1 ![0] bcast_S100000_S100000x1_0 (rowLargest y b)

/-- The column of largest entries spread over the lanes. -/
def largestRows (y : (⟨S100000x7, .f32⟩ : BufTy).Contents (Elt Ideal)) (b : (⟨S7, .f32⟩ : BufTy).Contents (Elt Ideal)) : (⟨S100000x7, .f32⟩ : BufTy).Contents (Elt Ideal) :=
  broadcastInDim S100000x7 ![0, 1] bcast_S100000x1_S100000x7_0_1 (largestColumn y b)

/-- The biased array with each row's largest entry taken off. -/
def shifted (y : (⟨S100000x7, .f32⟩ : BufTy).Contents (Elt Ideal)) (b : (⟨S7, .f32⟩ : BufTy).Contents (Elt Ideal)) : (⟨S100000x7, .f32⟩ : BufTy).Contents (Elt Ideal) :=
  subf (F := Ideal) (φ := .f32) (biased y b) (largestRows y b)

/-- Its exponentials. -/
def exps (y : (⟨S100000x7, .f32⟩ : BufTy).Contents (Elt Ideal)) (b : (⟨S7, .f32⟩ : BufTy).Contents (Elt Ideal)) : (⟨S100000x7, .f32⟩ : BufTy).Contents (Elt Ideal) :=
  Host.exp (F := Ideal) (φ := .f32) (shifted y b)

/-- The zero word the sum starts from. -/
def zeroInit : (⟨S_, .f32⟩ : BufTy).Contents (Elt Ideal) :=
  constant (F := Ideal) S_ .f32 0x00000000#32

/-- The sum of the exponentials over the lanes. -/
def laneSum (y : (⟨S100000x7, .f32⟩ : BufTy).Contents (Elt Ideal)) (b : (⟨S7, .f32⟩ : BufTy).Contents (Elt Ideal)) : (⟨S100000, .f32⟩ : BufTy).Contents (Elt Ideal) :=
  Host.reduceAdd (F := Ideal) (φ := .f32) (exps y b) zeroInit reducesTo_S100000x7_S100000_d1 h_S_

/-- The sums kept as a column. -/
def sumColumn (y : (⟨S100000x7, .f32⟩ : BufTy).Contents (Elt Ideal)) (b : (⟨S7, .f32⟩ : BufTy).Contents (Elt Ideal)) : (⟨S100000x1, .f32⟩ : BufTy).Contents (Elt Ideal) :=
  broadcastInDim S100000x1 ![0] bcast_S100000_S100000x1_0 (laneSum y b)

/-- Their logarithms. -/
def logColumn (y : (⟨S100000x7, .f32⟩ : BufTy).Contents (Elt Ideal)) (b : (⟨S7, .f32⟩ : BufTy).Contents (Elt Ideal)) : (⟨S100000x1, .f32⟩ : BufTy).Contents (Elt Ideal) :=
  Host.log (F := Ideal) (φ := .f32) (sumColumn y b)

/-- The column of logarithms spread over the lanes. -/
def logRows (y : (⟨S100000x7, .f32⟩ : BufTy).Contents (Elt Ideal)) (b : (⟨S7, .f32⟩ : BufTy).Contents (Elt Ideal)) : (⟨S100000x7, .f32⟩ : BufTy).Contents (Elt Ideal) :=
  broadcastInDim S100000x7 ![0, 1] bcast_S100000x1_S100000x7_0_1 (logColumn y b)

/-- The reference's last stretch: the bias added, then the logarithmic softmax along each row. -/
def hostTail (y : (⟨S100000x7, .f32⟩ : BufTy).Contents (Elt Ideal)) (b : (⟨S7, .f32⟩ : BufTy).Contents (Elt Ideal)) : (⟨S100000x7, .f32⟩ : BufTy).Contents (Elt Ideal) :=
  subf (F := Ideal) (φ := .f32) (shifted y b) (logRows y b)

/-- The stretch as one term of the host operations, nothing named. -/
theorem hostTail_def (y : (⟨S100000x7, .f32⟩ : BufTy).Contents (Elt Ideal)) (b : (⟨S7, .f32⟩ : BufTy).Contents (Elt Ideal)) :
    hostTail y b
      = subf (F := Ideal) (φ := .f32) (subf (F := Ideal) (φ := .f32) (addf (F := Ideal) (φ := .f32) y (broadcastInDim S100000x7 ![0, 1] bcast_S1x7_S100000x7_0_1 (broadcastInDim S1x7 ![1] bcast_S7_S1x7_1 b))) (broadcastInDim S100000x7 ![0, 1] bcast_S100000x1_S100000x7_0_1 (broadcastInDim S100000x1 ![0] bcast_S100000_S100000x1_0 (maximumf (F := Ideal) (φ := .f32) (broadcastInDim S100000 ![] bcast_S_S100000 (constant (F := Ideal) S_ .f32 0xFF800000#32)) (Host.reduce (FloatOps.maximumf (F := Ideal) (φ := .f32)) (addf (F := Ideal) (φ := .f32) y (broadcastInDim S100000x7 ![0, 1] bcast_S1x7_S100000x7_0_1 (broadcastInDim S1x7 ![1] bcast_S7_S1x7_1 b))) (constant (F := Ideal) S_ .f32 0xFF800000#32) reducesTo_S100000x7_S100000_d1 h_S_))))) (broadcastInDim S100000x7 ![0, 1] bcast_S100000x1_S100000x7_0_1 (Host.log (F := Ideal) (φ := .f32) (broadcastInDim S100000x1 ![0] bcast_S100000_S100000x1_0 (Host.reduceAdd (F := Ideal) (φ := .f32) (Host.exp (F := Ideal) (φ := .f32) (subf (F := Ideal) (φ := .f32) (addf (F := Ideal) (φ := .f32) y (broadcastInDim S100000x7 ![0, 1] bcast_S1x7_S100000x7_0_1 (broadcastInDim S1x7 ![1] bcast_S7_S1x7_1 b))) (broadcastInDim S100000x7 ![0, 1] bcast_S100000x1_S100000x7_0_1 (broadcastInDim S100000x1 ![0] bcast_S100000_S100000x1_0 (maximumf (F := Ideal) (φ := .f32) (broadcastInDim S100000 ![] bcast_S_S100000 (constant (F := Ideal) S_ .f32 0xFF800000#32)) (Host.reduce (FloatOps.maximumf (F := Ideal) (φ := .f32)) (addf (F := Ideal) (φ := .f32) y (broadcastInDim S100000x7 ![0, 1] bcast_S1x7_S100000x7_0_1 (broadcastInDim S1x7 ![1] bcast_S7_S1x7_1 b))) (constant (F := Ideal) S_ .f32 0xFF800000#32) reducesTo_S100000x7_S100000_d1 h_S_)))))) (constant (F := Ideal) S_ .f32 0x00000000#32) reducesTo_S100000x7_S100000_d1 h_S_)))) := rfl

/-! ## Layout operations at coordinates -/

/-- A vector of seven laid out as one row and spread over the rows reads, at `(r, l)`, its entry `l`. -/
theorem biasRow_apply {α : Type} (b : S7.Idx → α) (h1 : S7.BroadcastsInDim S1x7 (![1] : Fin 1 → Fin S1x7.rank))
    (h2 : S1x7.BroadcastsInDim S100000x7 (![0, 1] : Fin 2 → Fin S100000x7.rank)) (r : Fin 100000) (l : Fin 7) :
    broadcastInDim S100000x7 ![0, 1] h2 (broadcastInDim S1x7 ![1] h1 b) (ix2 r l) = b (ix1 l) :=
  (broadcastInDim_apply _ h2 _ (ix2 r l) (ix2 (0 : Fin 1) l) (fun a => match a with
    | ⟨0, _⟩ => by show 0 = if (1 : Nat) = 1 then 0 else r.val; rw [if_pos rfl]
    | ⟨1, _⟩ => by show l.val = if (7 : Nat) = 1 then 0 else l.val; rw [if_neg (by decide)])).trans
  (broadcastInDim_apply _ h1 b (ix2 (0 : Fin 1) l) (ix1 l) (fun a => match a with
    | ⟨0, _⟩ => by show l.val = if (7 : Nat) = 1 then 0 else l.val; rw [if_neg (by decide)]))

/-- A per-row value kept as a column and spread over the lanes reads, at `(r, l)`, row `r`'s value. -/
theorem column_apply {α : Type} (w : S100000.Idx → α) (h1 : S100000.BroadcastsInDim S100000x1 (![0] : Fin 1 → Fin S100000x1.rank))
    (h2 : S100000x1.BroadcastsInDim S100000x7 (![0, 1] : Fin 2 → Fin S100000x7.rank)) (r : Fin 100000) (l : Fin 7) :
    broadcastInDim S100000x7 ![0, 1] h2 (broadcastInDim S100000x1 ![0] h1 w) (ix2 r l) = w (ix1 r) :=
  (broadcastInDim_apply _ h2 _ (ix2 r l) (ix2 r (0 : Fin 1)) (fun a => match a with
    | ⟨0, _⟩ => by show r.val = if (100000 : Nat) = 1 then 0 else r.val; rw [if_neg (by decide)]
    | ⟨1, _⟩ => by show 0 = if (1 : Nat) = 1 then 0 else l.val; rw [if_pos rfl])).trans
  (broadcastInDim_apply _ h1 w (ix2 r (0 : Fin 1)) (ix1 r) (fun a => match a with
    | ⟨0, _⟩ => by show r.val = if (100000 : Nat) = 1 then 0 else r.val; rw [if_neg (by decide)]))

/-- The logarithm of a per-row number kept as a column, spread over the lanes, reads at `(r, l)` the logarithm of row
`r`'s number. -/
theorem logColumn_spread_apply (w : S100000.Idx → EReal)
    (h1 : S100000.BroadcastsInDim S100000x1 (![0] : Fin 1 → Fin S100000x1.rank))
    (h2 : S100000x1.BroadcastsInDim S100000x7 (![0, 1] : Fin 2 → Fin S100000x7.rank)) (r : Fin 100000) (l : Fin 7) :
    broadcastInDim S100000x7 ![0, 1] h2 (Host.log (F := Ideal) (φ := .f32) (broadcastInDim S100000x1 ![0] h1 w)) (ix2 r l)
      = Ideal.log (w (ix1 r)) :=
  (broadcastInDim_apply _ h2 _ (ix2 r l) (ix2 r (0 : Fin 1)) (fun a => match a with
    | ⟨0, _⟩ => by show r.val = if (100000 : Nat) = 1 then 0 else r.val; rw [if_neg (by decide)]
    | ⟨1, _⟩ => by show 0 = if (1 : Nat) = 1 then 0 else l.val; rw [if_pos rfl])).trans
  (congrArg Ideal.log (broadcastInDim_apply _ h1 w (ix2 r (0 : Fin 1)) (ix1 r) (fun a => match a with
    | ⟨0, _⟩ => by show r.val = if (100000 : Nat) = 1 then 0 else r.val; rw [if_neg (by decide)])))

/-! ## The two reductions at a row -/

/-- The index of row `r` with lane `l` put back on the reduced axis is `(r, l)`. -/
theorem lift_row (h : S100000x7.Reduces [1] S100000) (r : Fin 100000) (l : Fin 7) : h.lift (ix1 r) l = ix2 r l :=
  funext fun c => Fin.ext (by match c with | ⟨0, _⟩ => rfl | ⟨1, _⟩ => rfl)

/-- A host reduction by maximum over the lanes, from an initial value that is the word of −∞, is at row `r` the largest
of that row's seven entries. -/
theorem hostLaneMax_apply (z : S100000x7.Idx → EReal) (c : S_.Idx → EReal) (h' : S100000x7.ReducesTo [1] S100000)
    (hu : 0 < S_.numel) (hc : c (Shape.Idx.first hu) = Ideal.ofBits .f32 0xFF800000#32) (r : Fin 100000) :
    Host.reduce (FloatOps.maximumf (F := Ideal) (φ := .f32)) z c h' hu (ix1 r) = rowMax (fun l : Fin 7 => z (ix2 r l)) := by
  have h : S100000x7.Reduces [1] S100000 := by decide
  refine (Host.reduce_eq_fold_single _ z c h' h hu (ix1 r)).trans ?_
  rw [hc]
  unfold rowMax
  exact congrArg (Finset.fold max (Ideal.ofBits .f32 0xFF800000#32) · (Finset.univ : Finset (Fin 7)))
    (funext fun l => congrArg z (lift_row h r l))

/-- A host sum over the lanes, from an initial value that is zero, is at row `r` the sum of that row's seven entries. -/
theorem hostLaneSum_apply (z : S100000x7.Idx → EReal) (c : S_.Idx → EReal) (h' : S100000x7.ReducesTo [1] S100000)
    (hu : 0 < S_.numel) (hc : c (Shape.Idx.first hu) = 0) (r : Fin 100000) :
    Host.reduceAdd (F := Ideal) (φ := .f32) z c h' hu (ix1 r) = ∑ l : Fin 7, z (ix2 r l) := by
  have h : S100000x7.Reduces [1] S100000 := by decide
  unfold Host.reduceAdd
  rw [Ideal.hostReduceAdd_def, Ideal.hostReduceAdd_single h' h, hc, zero_add]
  exact Finset.sum_congr rfl fun l _ => congrArg z (lift_row h r l)

/-- Comparing the word of −∞ once more with a maximum folded from that word changes nothing. -/
theorem max_rowMax (z : Fin 7 → EReal) : max (Ideal.ofBits .f32 0xFF800000#32) (rowMax z) = rowMax z :=
  max_eq_right ((Finset.le_fold_max _).2 (Or.inl le_rfl))

/-! ## The stages at coordinates -/

/-- The biased array at `(r, l)` is entry `l` of the biased row `r`. -/
theorem biased_apply (y : (⟨S100000x7, .f32⟩ : BufTy).Contents (Elt Ideal)) (b : (⟨S7, .f32⟩ : BufTy).Contents (Elt Ideal)) (r : Fin 100000) (l : Fin 7) :
    biased y b (ix2 r l) = biasedRow y b r l := by
  show y (ix2 r l) + biasRows b (ix2 r l) = y (ix2 r l) + b (ix1 l)
  exact congrArg (y (ix2 r l) + ·) (biasRow_apply b _ _ r l)

/-- The folded maximum at row `r` is the largest entry of the biased row. -/
theorem laneMax_apply (y : (⟨S100000x7, .f32⟩ : BufTy).Contents (Elt Ideal)) (b : (⟨S7, .f32⟩ : BufTy).Contents (Elt Ideal)) (r : Fin 100000) :
    laneMax y b (ix1 r) = rowMax (biasedRow y b r) := by
  unfold laneMax
  refine (hostLaneMax_apply _ _ _ _ rfl r).trans ?_
  exact congrArg rowMax (funext fun l => biased_apply y b r l)

/-- The word of −∞ spread over the rows is that word's value at every row. -/
theorem negInfs_apply (i : S100000.Idx) : negInfs i = Ideal.ofBits .f32 0xFF800000#32 := by
  unfold negInfs
  exact broadcastInDim_apply _ bcast_S_S100000 negInfAgain i (fun a => a.elim0) (fun a => a.elim0)

/-- Each row's largest entry, after the second comparison with −∞. -/
theorem rowLargest_apply (y : (⟨S100000x7, .f32⟩ : BufTy).Contents (Elt Ideal)) (b : (⟨S7, .f32⟩ : BufTy).Contents (Elt Ideal)) (r : Fin 100000) :
    rowLargest y b (ix1 r) = rowMax (biasedRow y b r) := by
  show max (negInfs (ix1 r)) (laneMax y b (ix1 r)) = _
  rw [negInfs_apply, laneMax_apply]
  exact max_rowMax _

/-- The largest entries spread over the lanes read, at `(r, l)`, row `r`'s. -/
theorem largestRows_apply (y : (⟨S100000x7, .f32⟩ : BufTy).Contents (Elt Ideal)) (b : (⟨S7, .f32⟩ : BufTy).Contents (Elt Ideal)) (r : Fin 100000) (l : Fin 7) :
    largestRows y b (ix2 r l) = rowLargest y b (ix1 r) := by
  unfold largestRows largestColumn
  exact column_apply _ _ _ r l

/-- The shifted array at `(r, l)`: the biased entry less the row's largest. -/
theorem shifted_apply (y : (⟨S100000x7, .f32⟩ : BufTy).Contents (Elt Ideal)) (b : (⟨S7, .f32⟩ : BufTy).Contents (Elt Ideal)) (r : Fin 100000) (l : Fin 7) :
    shifted y b (ix2 r l) = biasedRow y b r l - rowMax (biasedRow y b r) := by
  show biased y b (ix2 r l) - largestRows y b (ix2 r l) = _
  rw [biased_apply, largestRows_apply, rowLargest_apply]

/-- The lane sum at row `r`: the sum of the exponentials of the shifted row. -/
theorem laneSum_apply (y : (⟨S100000x7, .f32⟩ : BufTy).Contents (Elt Ideal)) (b : (⟨S7, .f32⟩ : BufTy).Contents (Elt Ideal)) (r : Fin 100000) :
    laneSum y b (ix1 r) = ∑ l : Fin 7, Ideal.exp (biasedRow y b r l - rowMax (biasedRow y b r)) := by
  unfold laneSum
  refine (hostLaneSum_apply _ _ _ _ Ideal.ofBits_zero_f32 r).trans ?_
  exact Finset.sum_congr rfl fun l _ => congrArg Ideal.exp (shifted_apply y b r l)

/-- The logarithms spread over the lanes read, at `(r, l)`, the logarithm of row `r`'s lane sum. -/
theorem logRows_apply (y : (⟨S100000x7, .f32⟩ : BufTy).Contents (Elt Ideal)) (b : (⟨S7, .f32⟩ : BufTy).Contents (Elt Ideal)) (r : Fin 100000) (l : Fin 7) :
    logRows y b (ix2 r l) = Ideal.log (laneSum y b (ix1 r)) := by
  unfold logRows logColumn sumColumn
  exact logColumn_spread_apply _ _ _ r l

/-! ## The stretch is the stage -/

/-- The reference's bias and logarithmic softmax of any array `y` is the stage `biasLogSoftmax` of `y` and the bias. -/
theorem hostTail_eq (y : (⟨S100000x7, .f32⟩ : BufTy).Contents (Elt Ideal)) (b : (⟨S7, .f32⟩ : BufTy).Contents (Elt Ideal)) : hostTail y b = Cert.Gcn.biasLogSoftmax y b := by
  funext i
  obtain ⟨r, j, rfl⟩ : ∃ (r : Fin 100000) (j : Fin 7), i = ix2 r j := ⟨i 0, i 1, eq_ix2 i⟩
  show shifted y b (ix2 r j) - logRows y b (ix2 r j) = _
  rw [shifted_apply, logRows_apply, laneSum_apply]
  rfl

end Cert.Gcn.LogSoftmaxHost

end
-- ==== Proof.ReferenceValue.lean ====
/-
  The reference's result, read from its operation list a stretch at a time. The 138 host operations are cut at thirteen
  places into the stretches that compute, in order: the first matrix product; the edges' sources, targets and the nodes'
  degrees; the nodes' scales; the edges' coefficients; the gathered and scaled rows; the per-node sums; bias and max with zero; the second
  matrix product; then the same six again on seven features (the reference recomputes sources, targets, scales and
  coefficients from the edge list); and the bias with the logarithmic softmax. Each stretch is stated for ANY contents of
  the buffers before it, as the named function of the buffers it reads — the same host functions the other program's
  stretches are stated with, since the operations are the same — and a buffer a stretch does not write is carried across
  it. Composed from the launch contents, the result buffer ends at `kernelValue` of the six argument arrays; that, with
  the arguments kept, is the reference's run.
-/
import proofs.«169625_j37941741093230_2_alg».proof.Proof.ReferenceRun
import proofs.«169625_j37941741093230_2_alg».proof.Proof.KernelValue
import proofs.«169625_j37941741093230_2_alg».proof.Proof.ProjectHost
import proofs.«169625_j37941741093230_2_alg».proof.Proof.LogSoftmaxHost
import Idealize.ShloMosaic.Lib.ValueIdx
import Idealize.ShloMosaic.Lib.Pipeline.Value

set_option maxRecDepth 16384

noncomputable section

namespace Cert.Gcn.ReferenceValue

open Cert.ReferenceIdeal Cert.ReferenceIdeal.Gen Idealize.ShloMosaic Idealize.ShloMosaic.TcCoe Idealize.SL.Sem Idealize.ShloMosaic.StableHlo
open Idealize.ShloMosaic.ValueIdx
open Cert.Gcn Cert.Gcn.HostStages

/-! ## The operation list, cut into fourteen stretches -/

section Stretches

variable {F : FTy → Type} [FloatOps F]

/-- Operations 0 … 0 of the reference's 138. -/
abbrev seg0 : List (HloOp τ sig (Elt F)) :=
  [ binary main_arg0 main_arg2 main_v0 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

/-- Operations 1 … 18 of the reference's 138. -/
abbrev seg1 : List (HloOp τ sig (Elt F)) :=
  [ nullary main_v1 (iotaInDim S100000 32 0),
    unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    reshape main_v5 main_v6 rfl shapeCasts_S1x3200000_S3200000,
    binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- Operations 19 … 21 of the reference's 138. -/
abbrev seg2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 22 … 41 of the reference's 138. -/
abbrev seg3 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v4 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v4 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    unary main_v30 main_v31 (broadcastInDim S3300000x1 ![0] bcast_S3300000_S3300000x1_0 : (⟨S3300000, .f32⟩ : BufTy).Contents (Elt F) → (⟨S3300000x1, .f32⟩ : BufTy).Contents (Elt F)) ]

/-- Operations 42 … 52 of the reference's 138. -/
abbrev seg4 : List (HloOp τ sig (Elt F)) :=
  [ nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v4 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v4 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v4 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v0 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v38 main_v40 (mulf : (⟨S3300000x16, .f32⟩ : BufTy).Contents (Elt F) → (⟨S3300000x16, .f32⟩ : BufTy).Contents (Elt F) → (⟨S3300000x16, .f32⟩ : BufTy).Contents (Elt F)) ]

/-- Operations 53 … 56 of the reference's 138. -/
abbrev seg5 : List (HloOp τ sig (Elt F)) :=
  [ nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Operations 57 … 62 of the reference's 138. -/
abbrev seg6 : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- Operations 63 … 63 of the reference's 138. -/
abbrev seg7 : List (HloOp τ sig (Elt F)) :=
  [ binary main_v47 main_arg4 main_v48 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)) ]

/-- Operations 64 … 81 of the reference's 138. -/
abbrev seg8 : List (HloOp τ sig (Elt F)) :=
  [ nullary main_v49 (iotaInDim S100000 32 0),
    unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    reshape main_v50 main_v51 rfl shapeCasts_S1x3200000_S3200000,
    binary main_v51 main_v49 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    binary main_v54 main_v49 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v56 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S3300000x1 ![0] bcast_S3300000_S3300000x1_0 : (⟨S3300000, .i32⟩ : BufTy).Contents (Elt F) → (⟨S3300000x1, .i32⟩ : BufTy).Contents (Elt F)),
    ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32) ]

/-- Operations 82 … 84 of the reference's 138. -/
abbrev seg9 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select ]

/-- Operations 85 … 104 of the reference's 138. -/
abbrev seg10 : List (HloOp τ sig (Elt F)) :=
  [ nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v52 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v52 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v52 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v55 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v55 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)),
    unary main_v78 main_v79 (broadcastInDim S3300000x1 ![0] bcast_S3300000_S3300000x1_0 : (⟨S3300000, .f32⟩ : BufTy).Contents (Elt F) → (⟨S3300000x1, .f32⟩ : BufTy).Contents (Elt F)) ]

/-- Operations 105 … 115 of the reference's 138. -/
abbrev seg11 : List (HloOp τ sig (Elt F)) :=
  [ nullary main_c_17 (constantI S_ 32 0#32),
    unary main_c_17 main_v80 (broadcastInDim S3300000 ![] bcast_S_S3300000 : (⟨S_, .i32⟩ : BufTy).Contents (Elt F) → (⟨S3300000, .i32⟩ : BufTy).Contents (Elt F)),
    binary main_v52 main_v80 main_v81 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v82 (broadcastInDim S3300000 ![] bcast_S_S3300000 : (⟨S_, .i32⟩ : BufTy).Contents (Elt F) → (⟨S3300000, .i32⟩ : BufTy).Contents (Elt F)),
    binary main_v52 main_v82 main_v83 (addi : (⟨S3300000, .i32⟩ : BufTy).Contents (Elt F) → (⟨S3300000, .i32⟩ : BufTy).Contents (Elt F) → (⟨S3300000, .i32⟩ : BufTy).Contents (Elt F)),
    ternary main_v81 main_v83 main_v52 main_v84 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v84 main_v85 (broadcastInDim S3300000x1 ![0] bcast_S3300000_S3300000x1_0 : (⟨S3300000, .i32⟩ : BufTy).Contents (Elt F) → (⟨S3300000x1, .i32⟩ : BufTy).Contents (Elt F)),
    binary main_v48 main_v85 main_v86 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v79 main_v87 (broadcastInDim S3300000x7 ![0, 1] bcast_S3300000x1_S3300000x7_0_1 : (⟨S3300000x1, .f32⟩ : BufTy).Contents (Elt F) → (⟨S3300000x7, .f32⟩ : BufTy).Contents (Elt F)),
    binary main_v87 main_v86 main_v88 (mulf : (⟨S3300000x7, .f32⟩ : BufTy).Contents (Elt F) → (⟨S3300000x7, .f32⟩ : BufTy).Contents (Elt F) → (⟨S3300000x7, .f32⟩ : BufTy).Contents (Elt F)) ]

/-- Operations 116 … 119 of the reference's 138. -/
abbrev seg12 : List (HloOp τ sig (Elt F)) :=
  [ nullary main_cst_19 (constant S_ .f32 0x00000000#32),
    unary main_cst_19 main_v89 (broadcastInDim S100000x7 ![] bcast_S_S100000x7 : (⟨S_, .f32⟩ : BufTy).Contents (Elt F) → (⟨S100000x7, .f32⟩ : BufTy).Contents (Elt F)),
    unary main_v55 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)) ]

/-- Operations 120 … 137 of the reference's 138. -/
abbrev seg13 : List (HloOp τ sig (Elt F)) :=
  [ unary main_arg5 main_v92 (broadcastInDim S1x7 ![1] bcast_S7_S1x7_1 : (⟨S7, .f32⟩ : BufTy).Contents (Elt F) → (⟨S1x7, .f32⟩ : BufTy).Contents (Elt F)),
    unary main_v92 main_v93 (broadcastInDim S100000x7 ![0, 1] bcast_S1x7_S100000x7_0_1 : (⟨S1x7, .f32⟩ : BufTy).Contents (Elt F) → (⟨S100000x7, .f32⟩ : BufTy).Contents (Elt F)),
    binary main_v91 main_v93 main_v94 (addf : (⟨S100000x7, .f32⟩ : BufTy).Contents (Elt F) → (⟨S100000x7, .f32⟩ : BufTy).Contents (Elt F) → (⟨S100000x7, .f32⟩ : BufTy).Contents (Elt F)),
    TRef.nullary (TRef.of (T := ⟨S_, .f32⟩) main_call3_cst) (constant S_ .f32 0xFF800000#32),
    TRef.binary (TRef.of (T := ⟨S100000x7, .f32⟩) main_v94) (TRef.of (T := ⟨S_, .f32⟩) main_call3_cst) (TRef.of (T := ⟨S100000, .f32⟩) main_call3_v0) (fun x v => Host.reduce FloatOps.maximumf x v reducesTo_S100000x7_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x7, .f32⟩) main_call3_v4) (broadcastInDim S100000x7 ![0, 1] bcast_S100000x1_S100000x7_0_1),
    TRef.binary (TRef.of (T := ⟨S100000x7, .f32⟩) main_v94) (TRef.of (T := ⟨S100000x7, .f32⟩) main_call3_v4) (TRef.of (T := ⟨S100000x7, .f32⟩) main_call3_v5) subf,
    TRef.unary (TRef.of (T := ⟨S100000x7, .f32⟩) main_call3_v5) (TRef.of (T := ⟨S100000x7, .f32⟩) main_call3_v6) Host.exp,
    TRef.nullary (TRef.of (T := ⟨S_, .f32⟩) main_call3_cst_1) (constant S_ .f32 0x00000000#32),
    TRef.binary (TRef.of (T := ⟨S100000x7, .f32⟩) main_call3_v6) (TRef.of (T := ⟨S_, .f32⟩) main_call3_cst_1) (TRef.of (T := ⟨S100000, .f32⟩) main_call3_v7) (fun x v => Host.reduceAdd x v reducesTo_S100000x7_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x7, .f32⟩) main_call3_v10) (broadcastInDim S100000x7 ![0, 1] bcast_S100000x1_S100000x7_0_1),
    TRef.binary (TRef.of (T := ⟨S100000x7, .f32⟩) main_call3_v5) (TRef.of (T := ⟨S100000x7, .f32⟩) main_call3_v10) (TRef.of (T := ⟨S100000x7, .f32⟩) main_v95) subf ]

end Stretches

/-- The stretches, end to end, are the reference's operation list. -/
theorem ops_split : (Cert.ReferenceIdeal.ValueP.ops (F := Ideal)) = seg0 ++ (seg1 ++ (seg2 ++ (seg3 ++ (seg4 ++ (seg5 ++ (seg6 ++ (seg7 ++ (seg8 ++ (seg9 ++ (seg10 ++ (seg11 ++ (seg12 ++ (seg13))))))))))))) := rfl

/-- The contents after two lists run one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-! ## The two dense host forms that are not a named operation -/

/-- A coefficient column broadcast along 16 features and multiplied from the left is the row-wise scaling. -/
theorem scaled16_of (n : FVec Ideal S3300000x1 .f32) (g : FVec Ideal S3300000x16 .f32) :
    mulf (F := Ideal) (broadcastInDim S3300000x16 ![0, 1] bcast_S3300000x1_S3300000x16_0_1 n) g = scale16 g n := by
  funext i
  show broadcastInDim S3300000x16 ![0, 1] bcast_S3300000x1_S3300000x16_0_1 n i * g i = g i * n (ix2 (i 0) (0 : Fin 1))
  rw [broadcastInDim_apply _ bcast_S3300000x1_S3300000x16_0_1 n i (ix2 (i 0) (0 : Fin 1)) (fun a => match a with
    | ⟨0, _⟩ => by show (i 0).val = if (3300000 : Nat) = 1 then 0 else (i 0).val; rw [if_neg (by decide)]
    | ⟨1, _⟩ => by show (0 : Nat) = if (1 : Nat) = 1 then 0 else (i 1).val; rw [if_pos rfl])]
  exact mul_comm _ _

/-- The same along 7 features. -/
theorem scaled7_of (n : FVec Ideal S3300000x1 .f32) (g : FVec Ideal S3300000x7 .f32) :
    mulf (F := Ideal) (broadcastInDim S3300000x7 ![0, 1] bcast_S3300000x1_S3300000x7_0_1 n) g = scale7 g n := by
  funext i
  show broadcastInDim S3300000x7 ![0, 1] bcast_S3300000x1_S3300000x7_0_1 n i * g i = g i * n (ix2 (i 0) (0 : Fin 1))
  rw [broadcastInDim_apply _ bcast_S3300000x1_S3300000x7_0_1 n i (ix2 (i 0) (0 : Fin 1)) (fun a => match a with
    | ⟨0, _⟩ => by show (i 0).val = if (3300000 : Nat) = 1 then 0 else (i 0).val; rw [if_neg (by decide)]
    | ⟨1, _⟩ => by show (0 : Nat) = if (1 : Nat) = 1 then 0 else (i 1).val; rw [if_pos rfl])]
  exact mul_comm _ _

/-- A bias laid out as one row, broadcast down the nodes and added, then the larger of that and a zero splat. -/
theorem biasRelu_of (s : FVec Ideal S100000x16 .f32) (b : FVec Ideal S16 .f32) :
    maximumf (F := Ideal) (addf (F := Ideal) s (broadcastInDim S100000x16 ![0, 1] bcast_S1x16_S100000x16_0_1 (broadcastInDim S1x16 ![1] bcast_S16_S1x16_1 b)))
      (broadcastInDim S100000x16 ![] bcast_S_S100000x16 (constant (F := Ideal) S_ .f32 0x00000000#32)) = biasRelu s b := by
  funext i
  show max (s i + broadcastInDim S100000x16 ![0, 1] bcast_S1x16_S100000x16_0_1 (broadcastInDim S1x16 ![1] bcast_S16_S1x16_1 b) i)
      (broadcastInDim S100000x16 ![] bcast_S_S100000x16 (constant (F := Ideal) S_ .f32 0x00000000#32) i)
    = max (s i + b (ix1 (i 1))) (Ideal.ofBits .f32 0x00000000#32)
  rw [broadcastInDim_apply _ bcast_S1x16_S100000x16_0_1 (broadcastInDim S1x16 ![1] bcast_S16_S1x16_1 b) i (ix2 (0 : Fin 1) (i 1)) (fun a => match a with
      | ⟨0, _⟩ => by show (0 : Nat) = if (1 : Nat) = 1 then 0 else (i 0).val; rw [if_pos rfl]
      | ⟨1, _⟩ => by show (i 1).val = if (16 : Nat) = 1 then 0 else (i 1).val; rw [if_neg (by decide)]),
    broadcastInDim_apply _ bcast_S16_S1x16_1 b (ix2 (0 : Fin 1) (i 1)) (ix1 (i 1)) (fun a => match a with
      | ⟨0, _⟩ => by show (i 1).val = if (16 : Nat) = 1 then 0 else (i 1).val; rw [if_neg (by decide)]),
    broadcastInDim_apply _ bcast_S_S100000x16 (constant (F := Ideal) S_ .f32 0x00000000#32) i ix0 (fun a => a.elim0)]
  rfl

/-! ## Each stretch, from any contents -/

/-- A value stored in an inlined function's buffer and read back is the value: the two transports along the buffer's type
    equation cancel. -/
theorem ofBuf_toBuf {T : BufTy} (x : TRef sig T) (v : T.Contents (Elt Ideal)) : x.ofBuf (x.toBuf v) = v := by
  rcases x with ⟨ref, h, h1, h2⟩
  subst h
  rfl

section Each

variable (W : Valuation τ sig (Elt Ideal))

theorem seg0_v0 : StableHlo.after (seg0 (F := Ideal)) W (Proc.devRef .tc main_v0)
    = Host.dotGeneral (F := Ideal) (φ₁ := .f32) (φ₂ := .f32) dot_S100000x512_S512x16_S100000x16_1_0_0_1_n_n none (W (Proc.devRef .tc main_arg0)) (W (Proc.devRef .tc main_arg2)) := by
  dsimp only [seg0]; after_results

set_option maxHeartbeats 8000000 in
theorem seg1_v4 : StableHlo.after (seg1 (F := Ideal)) W (Proc.devRef .tc main_v4) = sourcesOf (W (Proc.devRef .tc main_arg1)) := by
  dsimp only [seg1]; after_results_simp <;> rfl
set_option maxHeartbeats 8000000 in
theorem seg1_v7 : StableHlo.after (seg1 (F := Ideal)) W (Proc.devRef .tc main_v7) = targetsOf (W (Proc.devRef .tc main_arg1)) := by
  dsimp only [seg1]; after_results_simp <;> rfl
set_option maxHeartbeats 8000000 in
theorem seg1_v13 : StableHlo.after (seg1 (F := Ideal)) W (Proc.devRef .tc main_v13) = positiveOf (degreeOf (targetsOf (W (Proc.devRef .tc main_arg1)))) := by
  dsimp only [seg1]; after_results_simp <;> rfl
set_option maxHeartbeats 8000000 in
theorem seg1_v14 : StableHlo.after (seg1 (F := Ideal)) W (Proc.devRef .tc main_v14)
    = Host.rsqrt (F := Ideal) (s := Cert.KernelIdeal.S100000) (φ := .f32) (degreeOf (targetsOf (W (Proc.devRef .tc main_arg1)))) := by
  dsimp only [seg1]; after_results_simp <;> rfl
set_option maxHeartbeats 8000000 in
theorem seg1_cst2 : StableHlo.after (seg1 (F := Ideal)) W (Proc.devRef .tc main_cst_2) = constant (F := Ideal) S_ .f32 0x00000000#32 := by
  dsimp only [seg1]; after_results_simp

theorem seg2_v15 : StableHlo.after (seg2 (F := Ideal)) W (Proc.devRef .tc main_v15)
    = scaleOf (W (Proc.devRef .tc main_v13)) (W (Proc.devRef .tc main_v14)) (W (Proc.devRef .tc main_cst_2)) := by
  dsimp only [seg2]; after_results; rfl

set_option maxHeartbeats 8000000 in
theorem seg3_v31 : StableHlo.after (seg3 (F := Ideal)) W (Proc.devRef .tc main_v31)
    = coefficientOf (W (Proc.devRef .tc main_v15)) (W (Proc.devRef .tc main_v4)) (W (Proc.devRef .tc main_v7)) := by
  dsimp only [seg3]; after_results_simp <;> rfl

set_option maxHeartbeats 8000000 in
theorem seg4_v40 : StableHlo.after (seg4 (F := Ideal)) W (Proc.devRef .tc main_v40)
    = mulf (F := Ideal) (broadcastInDim S3300000x16 ![0, 1] bcast_S3300000x1_S3300000x16_0_1 (W (Proc.devRef .tc main_v31)))
        (gather16 (W (Proc.devRef .tc main_v0)) (W (Proc.devRef .tc main_v4))) := by
  dsimp only [seg4]; after_results_simp <;> rfl

theorem seg5_v43 : StableHlo.after (seg5 (F := Ideal)) W (Proc.devRef .tc main_v43)
    = sumAtTargets16 (W (Proc.devRef .tc main_v40)) (W (Proc.devRef .tc main_v7)) := by
  dsimp only [seg5]; after_results; rfl

theorem seg6_v47 : StableHlo.after (seg6 (F := Ideal)) W (Proc.devRef .tc main_v47)
    = maximumf (F := Ideal) (addf (F := Ideal) (W (Proc.devRef .tc main_v43)) (broadcastInDim S100000x16 ![0, 1] bcast_S1x16_S100000x16_0_1 (broadcastInDim S1x16 ![1] bcast_S16_S1x16_1 (W (Proc.devRef .tc main_arg3)))))
        (broadcastInDim S100000x16 ![] bcast_S_S100000x16 (constant (F := Ideal) S_ .f32 0x00000000#32)) := by
  dsimp only [seg6]; after_results; rfl

theorem seg7_v48 : StableHlo.after (seg7 (F := Ideal)) W (Proc.devRef .tc main_v48)
    = Host.dotGeneral (F := Ideal) (φ₁ := .f32) (φ₂ := .f32) dot_S100000x16_S16x7_S100000x7_1_0_0_1_n_n none (W (Proc.devRef .tc main_v47)) (W (Proc.devRef .tc main_arg4)) := by
  dsimp only [seg7]; after_results

set_option maxHeartbeats 8000000 in
theorem seg8_v52 : StableHlo.after (seg8 (F := Ideal)) W (Proc.devRef .tc main_v52) = sourcesOf (W (Proc.devRef .tc main_arg1)) := by
  dsimp only [seg8]; after_results_simp <;> rfl
set_option maxHeartbeats 8000000 in
theorem seg8_v55 : StableHlo.after (seg8 (F := Ideal)) W (Proc.devRef .tc main_v55) = targetsOf (W (Proc.devRef .tc main_arg1)) := by
  dsimp only [seg8]; after_results_simp <;> rfl
set_option maxHeartbeats 8000000 in
theorem seg8_v61 : StableHlo.after (seg8 (F := Ideal)) W (Proc.devRef .tc main_v61) = positiveOf (degreeOf (targetsOf (W (Proc.devRef .tc main_arg1)))) := by
  dsimp only [seg8]; after_results_simp <;> rfl
set_option maxHeartbeats 8000000 in
theorem seg8_v62 : StableHlo.after (seg8 (F := Ideal)) W (Proc.devRef .tc main_v62)
    = Host.rsqrt (F := Ideal) (s := Cert.KernelIdeal.S100000) (φ := .f32) (degreeOf (targetsOf (W (Proc.devRef .tc main_arg1)))) := by
  dsimp only [seg8]; after_results_simp <;> rfl
set_option maxHeartbeats 8000000 in
theorem seg8_cst12 : StableHlo.after (seg8 (F := Ideal)) W (Proc.devRef .tc main_cst_12) = constant (F := Ideal) S_ .f32 0x00000000#32 := by
  dsimp only [seg8]; after_results_simp

theorem seg9_v63 : StableHlo.after (seg9 (F := Ideal)) W (Proc.devRef .tc main_v63)
    = scaleOf (W (Proc.devRef .tc main_v61)) (W (Proc.devRef .tc main_v62)) (W (Proc.devRef .tc main_cst_12)) := by
  dsimp only [seg9]; after_results; rfl

set_option maxHeartbeats 8000000 in
theorem seg10_v79 : StableHlo.after (seg10 (F := Ideal)) W (Proc.devRef .tc main_v79)
    = coefficientOf (W (Proc.devRef .tc main_v63)) (W (Proc.devRef .tc main_v52)) (W (Proc.devRef .tc main_v55)) := by
  dsimp only [seg10]; after_results_simp <;> rfl

set_option maxHeartbeats 8000000 in
theorem seg11_v88 : StableHlo.after (seg11 (F := Ideal)) W (Proc.devRef .tc main_v88)
    = mulf (F := Ideal) (broadcastInDim S3300000x7 ![0, 1] bcast_S3300000x1_S3300000x7_0_1 (W (Proc.devRef .tc main_v79)))
        (gather7 (W (Proc.devRef .tc main_v48)) (W (Proc.devRef .tc main_v52))) := by
  dsimp only [seg11]; after_results_simp <;> rfl

theorem seg12_v91 : StableHlo.after (seg12 (F := Ideal)) W (Proc.devRef .tc main_v91)
    = sumAtTargets7 (W (Proc.devRef .tc main_v88)) (W (Proc.devRef .tc main_v55)) := by
  dsimp only [seg12]; after_results; rfl

set_option maxHeartbeats 8000000 in
theorem seg13_v95 : StableHlo.after (seg13 (F := Ideal)) W (Proc.devRef .tc main_v95)
    = LogSoftmaxHost.hostTail (W (Proc.devRef .tc main_v91)) (W (Proc.devRef .tc main_arg5)) := by
  dsimp only [seg13]; after_results_simp; simp only [ofBuf_toBuf]; rfl

end Each

/-! ## The contents at the fifteen boundaries, from any launch contents `V` -/

abbrev B0 (V : Valuation τ sig (Elt Ideal)) : Valuation τ sig (Elt Ideal) := V
abbrev B1 (V : Valuation τ sig (Elt Ideal)) : Valuation τ sig (Elt Ideal) := StableHlo.after (seg0 (F := Ideal)) (B0 V)
abbrev B2 (V : Valuation τ sig (Elt Ideal)) : Valuation τ sig (Elt Ideal) := StableHlo.after (seg1 (F := Ideal)) (B1 V)
abbrev B3 (V : Valuation τ sig (Elt Ideal)) : Valuation τ sig (Elt Ideal) := StableHlo.after (seg2 (F := Ideal)) (B2 V)
abbrev B4 (V : Valuation τ sig (Elt Ideal)) : Valuation τ sig (Elt Ideal) := StableHlo.after (seg3 (F := Ideal)) (B3 V)
abbrev B5 (V : Valuation τ sig (Elt Ideal)) : Valuation τ sig (Elt Ideal) := StableHlo.after (seg4 (F := Ideal)) (B4 V)
abbrev B6 (V : Valuation τ sig (Elt Ideal)) : Valuation τ sig (Elt Ideal) := StableHlo.after (seg5 (F := Ideal)) (B5 V)
abbrev B7 (V : Valuation τ sig (Elt Ideal)) : Valuation τ sig (Elt Ideal) := StableHlo.after (seg6 (F := Ideal)) (B6 V)
abbrev B8 (V : Valuation τ sig (Elt Ideal)) : Valuation τ sig (Elt Ideal) := StableHlo.after (seg7 (F := Ideal)) (B7 V)
abbrev B9 (V : Valuation τ sig (Elt Ideal)) : Valuation τ sig (Elt Ideal) := StableHlo.after (seg8 (F := Ideal)) (B8 V)
abbrev B10 (V : Valuation τ sig (Elt Ideal)) : Valuation τ sig (Elt Ideal) := StableHlo.after (seg9 (F := Ideal)) (B9 V)
abbrev B11 (V : Valuation τ sig (Elt Ideal)) : Valuation τ sig (Elt Ideal) := StableHlo.after (seg10 (F := Ideal)) (B10 V)
abbrev B12 (V : Valuation τ sig (Elt Ideal)) : Valuation τ sig (Elt Ideal) := StableHlo.after (seg11 (F := Ideal)) (B11 V)
abbrev B13 (V : Valuation τ sig (Elt Ideal)) : Valuation τ sig (Elt Ideal) := StableHlo.after (seg12 (F := Ideal)) (B12 V)
abbrev B14 (V : Valuation τ sig (Elt Ideal)) : Valuation τ sig (Elt Ideal) := StableHlo.after (seg13 (F := Ideal)) (B13 V)

section Chain

variable (V : Valuation τ sig (Elt Ideal))

theorem at1_arg1 : B1 V (Proc.devRef .tc main_arg1) = V (Proc.devRef .tc main_arg1) :=
  (by unwritten_by seg0 : B1 V (Proc.devRef .tc main_arg1) = B0 V (Proc.devRef .tc main_arg1)).trans rfl
theorem at2_arg1 : B2 V (Proc.devRef .tc main_arg1) = V (Proc.devRef .tc main_arg1) :=
  (by unwritten_by seg1 : B2 V (Proc.devRef .tc main_arg1) = B1 V (Proc.devRef .tc main_arg1)).trans (at1_arg1 V)
theorem at3_arg1 : B3 V (Proc.devRef .tc main_arg1) = V (Proc.devRef .tc main_arg1) :=
  (by unwritten_by seg2 : B3 V (Proc.devRef .tc main_arg1) = B2 V (Proc.devRef .tc main_arg1)).trans (at2_arg1 V)
theorem at4_arg1 : B4 V (Proc.devRef .tc main_arg1) = V (Proc.devRef .tc main_arg1) :=
  (by unwritten_by seg3 : B4 V (Proc.devRef .tc main_arg1) = B3 V (Proc.devRef .tc main_arg1)).trans (at3_arg1 V)
theorem at5_arg1 : B5 V (Proc.devRef .tc main_arg1) = V (Proc.devRef .tc main_arg1) :=
  (by unwritten_by seg4 : B5 V (Proc.devRef .tc main_arg1) = B4 V (Proc.devRef .tc main_arg1)).trans (at4_arg1 V)
theorem at6_arg1 : B6 V (Proc.devRef .tc main_arg1) = V (Proc.devRef .tc main_arg1) :=
  (by unwritten_by seg5 : B6 V (Proc.devRef .tc main_arg1) = B5 V (Proc.devRef .tc main_arg1)).trans (at5_arg1 V)
theorem at7_arg1 : B7 V (Proc.devRef .tc main_arg1) = V (Proc.devRef .tc main_arg1) :=
  (by unwritten_by seg6 : B7 V (Proc.devRef .tc main_arg1) = B6 V (Proc.devRef .tc main_arg1)).trans (at6_arg1 V)
theorem at8_arg1 : B8 V (Proc.devRef .tc main_arg1) = V (Proc.devRef .tc main_arg1) :=
  (by unwritten_by seg7 : B8 V (Proc.devRef .tc main_arg1) = B7 V (Proc.devRef .tc main_arg1)).trans (at7_arg1 V)

theorem at1_arg3 : B1 V (Proc.devRef .tc main_arg3) = V (Proc.devRef .tc main_arg3) :=
  (by unwritten_by seg0 : B1 V (Proc.devRef .tc main_arg3) = B0 V (Proc.devRef .tc main_arg3)).trans rfl
theorem at2_arg3 : B2 V (Proc.devRef .tc main_arg3) = V (Proc.devRef .tc main_arg3) :=
  (by unwritten_by seg1 : B2 V (Proc.devRef .tc main_arg3) = B1 V (Proc.devRef .tc main_arg3)).trans (at1_arg3 V)
theorem at3_arg3 : B3 V (Proc.devRef .tc main_arg3) = V (Proc.devRef .tc main_arg3) :=
  (by unwritten_by seg2 : B3 V (Proc.devRef .tc main_arg3) = B2 V (Proc.devRef .tc main_arg3)).trans (at2_arg3 V)
theorem at4_arg3 : B4 V (Proc.devRef .tc main_arg3) = V (Proc.devRef .tc main_arg3) :=
  (by unwritten_by seg3 : B4 V (Proc.devRef .tc main_arg3) = B3 V (Proc.devRef .tc main_arg3)).trans (at3_arg3 V)
theorem at5_arg3 : B5 V (Proc.devRef .tc main_arg3) = V (Proc.devRef .tc main_arg3) :=
  (by unwritten_by seg4 : B5 V (Proc.devRef .tc main_arg3) = B4 V (Proc.devRef .tc main_arg3)).trans (at4_arg3 V)
theorem at6_arg3 : B6 V (Proc.devRef .tc main_arg3) = V (Proc.devRef .tc main_arg3) :=
  (by unwritten_by seg5 : B6 V (Proc.devRef .tc main_arg3) = B5 V (Proc.devRef .tc main_arg3)).trans (at5_arg3 V)

theorem at1_arg4 : B1 V (Proc.devRef .tc main_arg4) = V (Proc.devRef .tc main_arg4) :=
  (by unwritten_by seg0 : B1 V (Proc.devRef .tc main_arg4) = B0 V (Proc.devRef .tc main_arg4)).trans rfl
theorem at2_arg4 : B2 V (Proc.devRef .tc main_arg4) = V (Proc.devRef .tc main_arg4) :=
  (by unwritten_by seg1 : B2 V (Proc.devRef .tc main_arg4) = B1 V (Proc.devRef .tc main_arg4)).trans (at1_arg4 V)
theorem at3_arg4 : B3 V (Proc.devRef .tc main_arg4) = V (Proc.devRef .tc main_arg4) :=
  (by unwritten_by seg2 : B3 V (Proc.devRef .tc main_arg4) = B2 V (Proc.devRef .tc main_arg4)).trans (at2_arg4 V)
theorem at4_arg4 : B4 V (Proc.devRef .tc main_arg4) = V (Proc.devRef .tc main_arg4) :=
  (by unwritten_by seg3 : B4 V (Proc.devRef .tc main_arg4) = B3 V (Proc.devRef .tc main_arg4)).trans (at3_arg4 V)
theorem at5_arg4 : B5 V (Proc.devRef .tc main_arg4) = V (Proc.devRef .tc main_arg4) :=
  (by unwritten_by seg4 : B5 V (Proc.devRef .tc main_arg4) = B4 V (Proc.devRef .tc main_arg4)).trans (at4_arg4 V)
theorem at6_arg4 : B6 V (Proc.devRef .tc main_arg4) = V (Proc.devRef .tc main_arg4) :=
  (by unwritten_by seg5 : B6 V (Proc.devRef .tc main_arg4) = B5 V (Proc.devRef .tc main_arg4)).trans (at5_arg4 V)
theorem at7_arg4 : B7 V (Proc.devRef .tc main_arg4) = V (Proc.devRef .tc main_arg4) :=
  (by unwritten_by seg6 : B7 V (Proc.devRef .tc main_arg4) = B6 V (Proc.devRef .tc main_arg4)).trans (at6_arg4 V)

theorem at1_arg5 : B1 V (Proc.devRef .tc main_arg5) = V (Proc.devRef .tc main_arg5) :=
  (by unwritten_by seg0 : B1 V (Proc.devRef .tc main_arg5) = B0 V (Proc.devRef .tc main_arg5)).trans rfl
theorem at2_arg5 : B2 V (Proc.devRef .tc main_arg5) = V (Proc.devRef .tc main_arg5) :=
  (by unwritten_by seg1 : B2 V (Proc.devRef .tc main_arg5) = B1 V (Proc.devRef .tc main_arg5)).trans (at1_arg5 V)
theorem at3_arg5 : B3 V (Proc.devRef .tc main_arg5) = V (Proc.devRef .tc main_arg5) :=
  (by unwritten_by seg2 : B3 V (Proc.devRef .tc main_arg5) = B2 V (Proc.devRef .tc main_arg5)).trans (at2_arg5 V)
theorem at4_arg5 : B4 V (Proc.devRef .tc main_arg5) = V (Proc.devRef .tc main_arg5) :=
  (by unwritten_by seg3 : B4 V (Proc.devRef .tc main_arg5) = B3 V (Proc.devRef .tc main_arg5)).trans (at3_arg5 V)
theorem at5_arg5 : B5 V (Proc.devRef .tc main_arg5) = V (Proc.devRef .tc main_arg5) :=
  (by unwritten_by seg4 : B5 V (Proc.devRef .tc main_arg5) = B4 V (Proc.devRef .tc main_arg5)).trans (at4_arg5 V)
theorem at6_arg5 : B6 V (Proc.devRef .tc main_arg5) = V (Proc.devRef .tc main_arg5) :=
  (by unwritten_by seg5 : B6 V (Proc.devRef .tc main_arg5) = B5 V (Proc.devRef .tc main_arg5)).trans (at5_arg5 V)
theorem at7_arg5 : B7 V (Proc.devRef .tc main_arg5) = V (Proc.devRef .tc main_arg5) :=
  (by unwritten_by seg6 : B7 V (Proc.devRef .tc main_arg5) = B6 V (Proc.devRef .tc main_arg5)).trans (at6_arg5 V)
theorem at8_arg5 : B8 V (Proc.devRef .tc main_arg5) = V (Proc.devRef .tc main_arg5) :=
  (by unwritten_by seg7 : B8 V (Proc.devRef .tc main_arg5) = B7 V (Proc.devRef .tc main_arg5)).trans (at7_arg5 V)
theorem at9_arg5 : B9 V (Proc.devRef .tc main_arg5) = V (Proc.devRef .tc main_arg5) :=
  (by unwritten_by seg8 : B9 V (Proc.devRef .tc main_arg5) = B8 V (Proc.devRef .tc main_arg5)).trans (at8_arg5 V)
theorem at10_arg5 : B10 V (Proc.devRef .tc main_arg5) = V (Proc.devRef .tc main_arg5) :=
  (by unwritten_by seg9 : B10 V (Proc.devRef .tc main_arg5) = B9 V (Proc.devRef .tc main_arg5)).trans (at9_arg5 V)
theorem at11_arg5 : B11 V (Proc.devRef .tc main_arg5) = V (Proc.devRef .tc main_arg5) :=
  (by unwritten_by seg10 : B11 V (Proc.devRef .tc main_arg5) = B10 V (Proc.devRef .tc main_arg5)).trans (at10_arg5 V)
theorem at12_arg5 : B12 V (Proc.devRef .tc main_arg5) = V (Proc.devRef .tc main_arg5) :=
  (by unwritten_by seg11 : B12 V (Proc.devRef .tc main_arg5) = B11 V (Proc.devRef .tc main_arg5)).trans (at11_arg5 V)
theorem at13_arg5 : B13 V (Proc.devRef .tc main_arg5) = V (Proc.devRef .tc main_arg5) :=
  (by unwritten_by seg12 : B13 V (Proc.devRef .tc main_arg5) = B12 V (Proc.devRef .tc main_arg5)).trans (at12_arg5 V)

theorem def_v0 : B1 V (Proc.devRef .tc main_v0) = project16 (V (Proc.devRef .tc main_arg0)) (V (Proc.devRef .tc main_arg2)) :=
  (seg0_v0 (B0 V)).trans (ProjectHost.host_project16_of _ _)
theorem at2_v0 : B2 V (Proc.devRef .tc main_v0) = project16 (V (Proc.devRef .tc main_arg0)) (V (Proc.devRef .tc main_arg2)) :=
  (by unwritten_by seg1 : B2 V (Proc.devRef .tc main_v0) = B1 V (Proc.devRef .tc main_v0)).trans (def_v0 V)
theorem at3_v0 : B3 V (Proc.devRef .tc main_v0) = project16 (V (Proc.devRef .tc main_arg0)) (V (Proc.devRef .tc main_arg2)) :=
  (by unwritten_by seg2 : B3 V (Proc.devRef .tc main_v0) = B2 V (Proc.devRef .tc main_v0)).trans (at2_v0 V)
theorem at4_v0 : B4 V (Proc.devRef .tc main_v0) = project16 (V (Proc.devRef .tc main_arg0)) (V (Proc.devRef .tc main_arg2)) :=
  (by unwritten_by seg3 : B4 V (Proc.devRef .tc main_v0) = B3 V (Proc.devRef .tc main_v0)).trans (at3_v0 V)

theorem def_v4 : B2 V (Proc.devRef .tc main_v4) = sourcesOf (V (Proc.devRef .tc main_arg1)) := (seg1_v4 (B1 V)).trans (congrArg sourcesOf (at1_arg1 V))
theorem def_v7 : B2 V (Proc.devRef .tc main_v7) = targetsOf (V (Proc.devRef .tc main_arg1)) := (seg1_v7 (B1 V)).trans (congrArg targetsOf (at1_arg1 V))
theorem at2_v13 : B2 V (Proc.devRef .tc main_v13) = positiveOf (degreeOf (targetsOf (V (Proc.devRef .tc main_arg1)))) := (seg1_v13 (B1 V)).trans (by rw [at1_arg1])
theorem at2_v14 : B2 V (Proc.devRef .tc main_v14) = Host.rsqrt (F := Ideal) (s := Cert.KernelIdeal.S100000) (φ := .f32) (degreeOf (targetsOf (V (Proc.devRef .tc main_arg1)))) :=
  (seg1_v14 (B1 V)).trans (by rw [at1_arg1])
theorem at2_cst2 : B2 V (Proc.devRef .tc main_cst_2) = constant (F := Ideal) S_ .f32 0x00000000#32 := seg1_cst2 (B1 V)
theorem at3_v15 : B3 V (Proc.devRef .tc main_v15) = scaleOf (positiveOf (degreeOf (targetsOf (V (Proc.devRef .tc main_arg1))))) (Host.rsqrt (F := Ideal) (s := Cert.KernelIdeal.S100000) (φ := .f32) (degreeOf (targetsOf (V (Proc.devRef .tc main_arg1))))) (constant (F := Ideal) S_ .f32 0x00000000#32) := (seg2_v15 (B2 V)).trans (by rw [at2_v13, at2_v14, at2_cst2])
theorem at3_v4 : B3 V (Proc.devRef .tc main_v4) = sourcesOf (V (Proc.devRef .tc main_arg1)) :=
  (by unwritten_by seg2 : B3 V (Proc.devRef .tc main_v4) = B2 V (Proc.devRef .tc main_v4)).trans (def_v4 V)
theorem at4_v4 : B4 V (Proc.devRef .tc main_v4) = sourcesOf (V (Proc.devRef .tc main_arg1)) :=
  (by unwritten_by seg3 : B4 V (Proc.devRef .tc main_v4) = B3 V (Proc.devRef .tc main_v4)).trans (at3_v4 V)

theorem at3_v7 : B3 V (Proc.devRef .tc main_v7) = targetsOf (V (Proc.devRef .tc main_arg1)) :=
  (by unwritten_by seg2 : B3 V (Proc.devRef .tc main_v7) = B2 V (Proc.devRef .tc main_v7)).trans (def_v7 V)
theorem at4_v7 : B4 V (Proc.devRef .tc main_v7) = targetsOf (V (Proc.devRef .tc main_arg1)) :=
  (by unwritten_by seg3 : B4 V (Proc.devRef .tc main_v7) = B3 V (Proc.devRef .tc main_v7)).trans (at3_v7 V)
theorem at5_v7 : B5 V (Proc.devRef .tc main_v7) = targetsOf (V (Proc.devRef .tc main_arg1)) :=
  (by unwritten_by seg4 : B5 V (Proc.devRef .tc main_v7) = B4 V (Proc.devRef .tc main_v7)).trans (at4_v7 V)

theorem at4_v31 : B4 V (Proc.devRef .tc main_v31) = coefficients (V (Proc.devRef .tc main_arg1)) :=
  (seg3_v31 (B3 V)).trans (by rw [at3_v15, at3_v4, at3_v7]; rfl)

theorem at5_v40 : B5 V (Proc.devRef .tc main_v40) = scale16 (gather16 (project16 (V (Proc.devRef .tc main_arg0)) (V (Proc.devRef .tc main_arg2))) (sourcesOf (V (Proc.devRef .tc main_arg1)))) (coefficients (V (Proc.devRef .tc main_arg1))) :=
  (seg4_v40 (B4 V)).trans ((scaled16_of _ _).trans (congrArg₂ scale16 (congrArg₂ gather16 (at4_v0 V) (at4_v4 V)) (at4_v31 V)))

theorem at6_v43 : B6 V (Proc.devRef .tc main_v43) = sumAtTargets16 (scale16 (gather16 (project16 (V (Proc.devRef .tc main_arg0)) (V (Proc.devRef .tc main_arg2))) (sourcesOf (V (Proc.devRef .tc main_arg1)))) (coefficients (V (Proc.devRef .tc main_arg1)))) (targetsOf (V (Proc.devRef .tc main_arg1))) :=
  (seg5_v43 (B5 V)).trans (congrArg₂ sumAtTargets16 (at5_v40 V) (at5_v7 V))

theorem at7_v47 : B7 V (Proc.devRef .tc main_v47) = hidden (V (Proc.devRef .tc main_arg0)) (V (Proc.devRef .tc main_arg1)) (V (Proc.devRef .tc main_arg2)) (V (Proc.devRef .tc main_arg3)) :=
  (seg6_v47 (B6 V)).trans ((biasRelu_of _ _).trans (congrArg₂ biasRelu (at6_v43 V) (at6_arg3 V)))

theorem def_v48 : B8 V (Proc.devRef .tc main_v48) = project7 (hidden (V (Proc.devRef .tc main_arg0)) (V (Proc.devRef .tc main_arg1)) (V (Proc.devRef .tc main_arg2)) (V (Proc.devRef .tc main_arg3))) (V (Proc.devRef .tc main_arg4)) :=
  (seg7_v48 (B7 V)).trans ((ProjectHost.host_project7_of _ _).trans (congrArg₂ project7 (at7_v47 V) (at7_arg4 V)))
theorem at9_v48 : B9 V (Proc.devRef .tc main_v48) = project7 (hidden (V (Proc.devRef .tc main_arg0)) (V (Proc.devRef .tc main_arg1)) (V (Proc.devRef .tc main_arg2)) (V (Proc.devRef .tc main_arg3))) (V (Proc.devRef .tc main_arg4)) :=
  (by unwritten_by seg8 : B9 V (Proc.devRef .tc main_v48) = B8 V (Proc.devRef .tc main_v48)).trans (def_v48 V)
theorem at10_v48 : B10 V (Proc.devRef .tc main_v48) = project7 (hidden (V (Proc.devRef .tc main_arg0)) (V (Proc.devRef .tc main_arg1)) (V (Proc.devRef .tc main_arg2)) (V (Proc.devRef .tc main_arg3))) (V (Proc.devRef .tc main_arg4)) :=
  (by unwritten_by seg9 : B10 V (Proc.devRef .tc main_v48) = B9 V (Proc.devRef .tc main_v48)).trans (at9_v48 V)
theorem at11_v48 : B11 V (Proc.devRef .tc main_v48) = project7 (hidden (V (Proc.devRef .tc main_arg0)) (V (Proc.devRef .tc main_arg1)) (V (Proc.devRef .tc main_arg2)) (V (Proc.devRef .tc main_arg3))) (V (Proc.devRef .tc main_arg4)) :=
  (by unwritten_by seg10 : B11 V (Proc.devRef .tc main_v48) = B10 V (Proc.devRef .tc main_v48)).trans (at10_v48 V)

theorem def_v52 : B9 V (Proc.devRef .tc main_v52) = sourcesOf (V (Proc.devRef .tc main_arg1)) := (seg8_v52 (B8 V)).trans (congrArg sourcesOf (at8_arg1 V))
theorem def_v55 : B9 V (Proc.devRef .tc main_v55) = targetsOf (V (Proc.devRef .tc main_arg1)) := (seg8_v55 (B8 V)).trans (congrArg targetsOf (at8_arg1 V))
theorem at9_v61 : B9 V (Proc.devRef .tc main_v61) = positiveOf (degreeOf (targetsOf (V (Proc.devRef .tc main_arg1)))) := (seg8_v61 (B8 V)).trans (by rw [at8_arg1])
theorem at9_v62 : B9 V (Proc.devRef .tc main_v62) = Host.rsqrt (F := Ideal) (s := Cert.KernelIdeal.S100000) (φ := .f32) (degreeOf (targetsOf (V (Proc.devRef .tc main_arg1)))) :=
  (seg8_v62 (B8 V)).trans (by rw [at8_arg1])
theorem at9_cst12 : B9 V (Proc.devRef .tc main_cst_12) = constant (F := Ideal) S_ .f32 0x00000000#32 := seg8_cst12 (B8 V)
theorem at10_v63 : B10 V (Proc.devRef .tc main_v63) = scaleOf (positiveOf (degreeOf (targetsOf (V (Proc.devRef .tc main_arg1))))) (Host.rsqrt (F := Ideal) (s := Cert.KernelIdeal.S100000) (φ := .f32) (degreeOf (targetsOf (V (Proc.devRef .tc main_arg1))))) (constant (F := Ideal) S_ .f32 0x00000000#32) := (seg9_v63 (B9 V)).trans (by rw [at9_v61, at9_v62, at9_cst12])
theorem at10_v52 : B10 V (Proc.devRef .tc main_v52) = sourcesOf (V (Proc.devRef .tc main_arg1)) :=
  (by unwritten_by seg9 : B10 V (Proc.devRef .tc main_v52) = B9 V (Proc.devRef .tc main_v52)).trans (def_v52 V)
theorem at11_v52 : B11 V (Proc.devRef .tc main_v52) = sourcesOf (V (Proc.devRef .tc main_arg1)) :=
  (by unwritten_by seg10 : B11 V (Proc.devRef .tc main_v52) = B10 V (Proc.devRef .tc main_v52)).trans (at10_v52 V)

theorem at10_v55 : B10 V (Proc.devRef .tc main_v55) = targetsOf (V (Proc.devRef .tc main_arg1)) :=
  (by unwritten_by seg9 : B10 V (Proc.devRef .tc main_v55) = B9 V (Proc.devRef .tc main_v55)).trans (def_v55 V)
theorem at11_v55 : B11 V (Proc.devRef .tc main_v55) = targetsOf (V (Proc.devRef .tc main_arg1)) :=
  (by unwritten_by seg10 : B11 V (Proc.devRef .tc main_v55) = B10 V (Proc.devRef .tc main_v55)).trans (at10_v55 V)
theorem at12_v55 : B12 V (Proc.devRef .tc main_v55) = targetsOf (V (Proc.devRef .tc main_arg1)) :=
  (by unwritten_by seg11 : B12 V (Proc.devRef .tc main_v55) = B11 V (Proc.devRef .tc main_v55)).trans (at11_v55 V)

theorem at11_v79 : B11 V (Proc.devRef .tc main_v79) = coefficients (V (Proc.devRef .tc main_arg1)) :=
  (seg10_v79 (B10 V)).trans (by rw [at10_v63, at10_v52, at10_v55]; rfl)

theorem at12_v88 : B12 V (Proc.devRef .tc main_v88) = scale7 (gather7 (project7 (hidden (V (Proc.devRef .tc main_arg0)) (V (Proc.devRef .tc main_arg1)) (V (Proc.devRef .tc main_arg2)) (V (Proc.devRef .tc main_arg3))) (V (Proc.devRef .tc main_arg4))) (sourcesOf (V (Proc.devRef .tc main_arg1)))) (coefficients (V (Proc.devRef .tc main_arg1))) :=
  (seg11_v88 (B11 V)).trans ((scaled7_of _ _).trans (congrArg₂ scale7 (congrArg₂ gather7 (at11_v48 V) (at11_v52 V)) (at11_v79 V)))

theorem at13_v91 : B13 V (Proc.devRef .tc main_v91) = sumAtTargets7 (scale7 (gather7 (project7 (hidden (V (Proc.devRef .tc main_arg0)) (V (Proc.devRef .tc main_arg1)) (V (Proc.devRef .tc main_arg2)) (V (Proc.devRef .tc main_arg3))) (V (Proc.devRef .tc main_arg4))) (sourcesOf (V (Proc.devRef .tc main_arg1)))) (coefficients (V (Proc.devRef .tc main_arg1)))) (targetsOf (V (Proc.devRef .tc main_arg1))) :=
  (seg12_v91 (B12 V)).trans (congrArg₂ sumAtTargets7 (at12_v88 V) (at12_v55 V))

theorem at14_v95 : B14 V (Proc.devRef .tc main_v95) = kernelValue (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (seg13_v95 (B13 V)).trans ((LogSoftmaxHost.hostTail_eq _ _).trans (congrArg₂ biasLogSoftmax (at13_v91 V) (at13_arg5 V)))

/-- The whole list from `V` is the last boundary. -/
theorem after_ops : StableHlo.after (Cert.ReferenceIdeal.ValueP.ops (F := Ideal)) V = B14 V := by
  rw [ops_split]; simp only [after_append]

/-- After all 138 operations the result buffer holds `kernelValue` of the six argument buffers' contents. -/
theorem result_eq : StableHlo.after (Cert.ReferenceIdeal.ValueP.ops (F := Ideal)) V (Proc.devRef .tc main_v95) = kernelValue (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]; exact at14_v95 V

end Chain

/-! ## The reference's run -/

open Cert.ReferenceIdeal.ValueP in
set_option maxHeartbeats 8000000 in
/-- Every weakly fair execution of the reference terminates with `kernelValue` of the launch arrays in its result buffer
    and the six arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95)
        = kernelValue (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (result_eq (launchContents m c)),
      (h c main_arg0).trans (by unwritten_by ops),
      (h c main_arg1).trans (by unwritten_by ops),
      (h c main_arg2).trans (by unwritten_by ops),
      (h c main_arg3).trans (by unwritten_by ops),
      (h c main_arg4).trans (by unwritten_by ops),
      (h c main_arg5).trans (by unwritten_by ops)⟩)
    (run_seq scopedRefs_eq scopedSems_eq defs main (fun _ => ops) main_eq (fun _ => ops_sub) m ρ)

end Cert.Gcn.ReferenceValue

end
-- ==== Proof.lean ====
/-
  A two-layer graph convolution with a logarithmic softmax, computed two ways, is one function of its inputs over the
  extended reals. With s, d the sources and targets of the edges (self loops appended), deg the number of edges into a node,
  and c(e) = deg(s e)^(-1/2) · deg(d e)^(-1/2) where the degrees are positive, a layer sends node features h to
      out(n, ·) = Σ over the edges e with d e = n of c(e) · (h W)(s e, ·) + b,
  the first layer ends in max(·, 0) and the second in the logarithmic softmax of each row. One program runs the dense steps
  — the two matrix products, the two row-wise scalings, bias + max, bias + logarithmic softmax — as six pipelined regions
  over blocks of 5000 rows, with the gathers and per-node sums as host operations between them; the other is the plain
  sequence of host operations. Each region leaves in its array ONE function of the arrays it was entered with (the blocks
  tile the array and a block's entry depends on its own row only), so the first program's result is the composition
  `kernelValue` of the six launch arrays (FoldedValue); the second program's operations, read a stretch at a time, compose to
  the same function (ReferenceValue: its host operations are the same operations, a matrix product is the same sum, a product
  commutes, and the maximum taken against −∞ once more changes nothing). No step uses that the inputs are finite.
-/
import proofs.«169625_j37941741093230_2_alg».proof.Defs
import proofs.«169625_j37941741093230_2_alg».proof.Proof.Gen.Kernel
import proofs.«169625_j37941741093230_2_alg».proof.Proof.Gen.Kernel.Skeleton
import proofs.«169625_j37941741093230_2_alg».proof.Proof.Gen.Kernel.Launch
import proofs.«169625_j37941741093230_2_alg».proof.Proof.Gen.Kernel.Points
import proofs.«169625_j37941741093230_2_alg».proof.Proof.Gen.Kernel.Frame
import proofs.«169625_j37941741093230_2_alg».proof.Proof.Gen.KernelIdeal
import proofs.«169625_j37941741093230_2_alg».proof.Proof.Gen.KernelIdeal.Skeleton
import proofs.«169625_j37941741093230_2_alg».proof.Proof.Gen.KernelIdeal.Launch
import proofs.«169625_j37941741093230_2_alg».proof.Proof.Gen.KernelIdeal.Points
import proofs.«169625_j37941741093230_2_alg».proof.Proof.Gen.KernelIdeal.Frame
import proofs.«169625_j37941741093230_2_alg».proof.Proof.Gen.ReferenceIdeal
import proofs.«169625_j37941741093230_2_alg».proof.Proof.Gen.Pre_finite_inputs
import proofs.«169625_j37941741093230_2_alg».proof.Proof.KernelRun
import proofs.«169625_j37941741093230_2_alg».proof.Proof.FoldedValue
import proofs.«169625_j37941741093230_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level program runs, and leaves its arguments as they were. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.Gcn.ReferenceValue.run m ρ)

/-- Reading the program over the extended reals rewrote none of its operations. -/
theorem preserves : Cert.preserves_Kernel_KernelIdeal := trivial

/-- From memories that agree on the six arguments both programs end with `kernelValue` of those arguments in their
    result buffers. -/
theorem algebraic : Cert.algebraic_KernelIdeal_ReferenceIdeal := by
  intro m ρ m' ρ' _ hagree
  refine ⟨fun c => Cert.Gcn.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.Folded.result_eq m ρ c), (h c).2⟩) (Cert.KernelIdeal.Folded.run_folded m ρ)
  · refine (θ_run Cert.ReferenceIdeal.defs _ _).mono (fun r h c => ⟨(h c).1.trans ?_, (h c).2⟩)
      (Cert.Gcn.ReferenceValue.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
